-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg6 : FVec F S128 .f32) (main_arg12 : FVec F S128 .f32) (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_cst_28 : FVec F S_ .f32 := constant S_ .f32 0x00000000#32
  let main_v74 : FVec F S128 .f32 := broadcastInDim S128 ![] bcast_S_S128 main_cst_28
  let main_v75 : IVec S128 1 := cmpf .oge main_arg6 main_v74
  let main_c_29 : IVec S_ 1 := constantI S_ 1 1#1
  let main_v76 : IVec S_ 1 := (fun x v => Host.reduce IntOp.andi x v reducesTo_S128_S_d0 h_S_) main_v75 main_c_29
  let main_v77 : IVec S_ 1 := andi main_v73 main_v76
  let main_cst_30 : FVec F S_ .f32 := constant S_ .f32 0x00000000#32
  let main_v78 : FVec F S128 .f32 := broadcastInDim S128 ![] bcast_S_S128 main_cst_30
  let main_v79 : IVec S128 1 := cmpf .oge main_arg12 main_v78
  let main_c_31 : IVec S_ 1 := constantI S_ 1 1#1
  let main_v80 : IVec S_ 1 := (fun x v => Host.reduce IntOp.andi x v reducesTo_S128_S_d0 h_S_) main_v79 main_c_31
  let main_v81 : IVec S_ 1 := andi main_v77 main_v80
  main_v81

def fn_part3 {F : FTy → Type} [FloatOps F] (main_arg6 : FVec F S128 .f32) (main_arg11 : FVec F S128 .f32) (main_arg12 : FVec F S128 .f32) (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg6 main_arg12 main_arg14 main_v63 main_v67

def fn_part2 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128x128 .f32) (main_arg14 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg6 main_arg11 main_arg12 main_arg13 main_arg14 main_v48 main_v49 main_v50

def fn_part1 {F : FTy → Type} [FloatOps F] (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128x128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg6 main_arg7 main_arg8 main_arg9 main_arg10 main_arg11 main_arg12 main_arg13 main_arg14 main_v33

def fn {F : FTy → Type} [FloatOps F] (main_arg0 : FVec F S50000x128 .f32) (main_arg1 : FVec F S128x128 .f32) (main_arg2 : FVec F S128 .f32) (main_arg3 : FVec F S128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128x128 .f32) (main_arg14 : FVec F S128 .f32) (main_arg15 : IVec S800000 32) (main_arg16 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 120
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S800000x1, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S50000x128, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S800000x1, .f32⟩
  | .hbm, ⟨85, _⟩ => ⟨S800000x128, .f32⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S128, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S50000x128, .f32⟩
  | .hbm, ⟨102, _⟩ => ⟨S_, .i32⟩
  | .hbm, ⟨103, _⟩ => ⟨S800000, .i32⟩
  | .hbm, ⟨104, _⟩ => ⟨S800000, .i1⟩
  | .hbm, ⟨105, _⟩ => ⟨S_, .i32⟩
  | .hbm, ⟨106, _⟩ => ⟨S800000, .i32⟩
  | .hbm, ⟨107, _⟩ => ⟨S800000, .i32⟩
  | .hbm, ⟨108, _⟩ => ⟨S800000, .i32⟩
  | .hbm, ⟨109, _⟩ => ⟨S800000x1, .i32⟩
  | .hbm, ⟨110, _⟩ => ⟨S800000x128, .f32⟩
  | .hbm, ⟨111, _⟩ => ⟨S800000x1, .f32⟩
  | .hbm, ⟨112, _⟩ => ⟨S800000x128, .f32⟩
  | .hbm, ⟨113, _⟩ => ⟨S800000x128, .f32⟩
  | .hbm, ⟨114, _⟩ => ⟨S_, .f32⟩
  | .hbm, ⟨115, _⟩ => ⟨S50000x128, .f32⟩
  | .hbm, ⟨116, _⟩ => ⟨S800000x1, .i32⟩
  | .hbm, ⟨117, _⟩ => ⟨S50000x128, .f32⟩
  | .hbm, ⟨118, _⟩ => ⟨S1x128, .f32⟩
  | .hbm, ⟨119, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x1, .f32⟩
  | .local _ .vmem, ⟨29, _⟩ => ⟨S5000x1, .f32⟩
  | .local _ .vmem, ⟨30, _⟩ => ⟨S128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_9 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_13 : Ref sig .tc := ⟨.hbm, 102, rfl⟩
abbrev main_v70 : Ref sig .tc := ⟨.hbm, 103, rfl⟩
abbrev main_v71 : Ref sig .tc := ⟨.hbm, 104, rfl⟩
abbrev main_c_14 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_15 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v36) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v46) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v59) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v66) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v67) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v68) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v69) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v82) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v83) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg0) S5000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v84) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 218
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128x128, .f32⟩
  | 14 => ⟨S128, .f32⟩
  | 15 => ⟨S800000, .i32⟩
  | 16 => ⟨S800000, .i32⟩
  | 17 => ⟨S50000x128, .f32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x1, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S128, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S50000x128, .f32⟩
  | 91 => ⟨S_, .f32⟩
  | 92 => ⟨S800000, .f32⟩
  | 93 => ⟨S_, .f32⟩
  | 94 => ⟨S50000, .f32⟩
  | 95 => ⟨S800000x1, .i32⟩
  | 96 => ⟨S50000, .f32⟩
  | 97 => ⟨S_, .f32⟩
  | 98 => ⟨S50000, .f32⟩
  | 99 => ⟨S50000, .f32⟩
  | 100 => ⟨S50000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000, .f32⟩
  | 119 => ⟨S800000, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x128, .f32⟩
  | 1 => ⟨S800000x1, .f32⟩
  | 2 => ⟨S800000x128, .f32⟩
  | 3 => ⟨S800000x128, .f32⟩
  | 4 => ⟨S_, .f32⟩
  | 5 => ⟨S50000x128, .f32⟩
  | 6 => ⟨S800000x1, .i32⟩
  | 7 => ⟨S50000x128, .f32⟩
  | 8 => ⟨S50000, .f32⟩
  | 9 => ⟨S50000x1, .f32⟩
  | 10 => ⟨S50000x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S128, .f32⟩
  | 21 => ⟨S128, .f32⟩
  | 22 => ⟨S128, .f32⟩
  | 23 => ⟨S1x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S50000x128, .f32⟩
  | 36 => ⟨S_, .f32⟩
  | 37 => ⟨S800000, .f32⟩
  | 38 => ⟨S_, .f32⟩
  | 39 => ⟨S50000, .f32⟩
  | 40 => ⟨S800000x1, .i32⟩
  | 41 => ⟨S50000, .f32⟩
  | 42 => ⟨S_, .f32⟩
  | 43 => ⟨S50000, .f32⟩
  | 44 => ⟨S50000, .f32⟩
  | 45 => ⟨S50000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S800000, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S800000x1, .f32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S50000, .f32⟩
  | 82 => ⟨S50000x1, .f32⟩
  | 83 => ⟨S50000x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_c_6 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call0_cst : Ref sig .tc := ⟨.hbm, 87, rfl⟩
abbrev main_call0_v0 : Ref sig .tc := ⟨.hbm, 88, rfl⟩
abbrev main_v59 : Ref sig .tc := ⟨.hbm, 89, rfl⟩
abbrev main_v60 : Ref sig .tc := ⟨.hbm, 90, rfl⟩
abbrev main_cst_9 : Ref sig .tc := ⟨.hbm, 91, rfl⟩
abbrev main_v61 : Ref sig .tc := ⟨.hbm, 92, rfl⟩
abbrev main_cst_10 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_12 : Ref sig .tc := ⟨.hbm, 101, rfl⟩
abbrev main_v68 : Ref sig .tc := ⟨.hbm, 102, rfl⟩
abbrev main_v69 : Ref sig .tc := ⟨.hbm, 103, rfl⟩
abbrev main_c_13 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_14 : Ref sig .tc := ⟨.hbm, 110, rfl⟩
abbrev main_v75 : Ref sig .tc := ⟨.hbm, 111, rfl⟩
abbrev main_v76 : Ref sig .tc := ⟨.hbm, 112, rfl⟩
abbrev main_c_15 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_16 : Ref sig .tc := ⟨.hbm, 120, rfl⟩
abbrev main_v83 : Ref sig .tc := ⟨.hbm, 121, rfl⟩
abbrev main_v84 : Ref sig .tc := ⟨.hbm, 122, rfl⟩
abbrev main_c_17 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_18 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_19 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_call1_cst : Ref sig .tc := ⟨.hbm, 160, rfl⟩
abbrev main_call1_v0 : Ref sig .tc := ⟨.hbm, 161, rfl⟩
abbrev main_v119 : Ref sig .tc := ⟨.hbm, 162, rfl⟩
abbrev main_v120 : Ref sig .tc := ⟨.hbm, 163, rfl⟩
abbrev main_cst_20 : Ref sig .tc := ⟨.hbm, 164, rfl⟩
abbrev main_v121 : Ref sig .tc := ⟨.hbm, 165, rfl⟩
abbrev main_cst_21 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_22 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_c_23 : Ref sig .tc := ⟨.hbm, 174, rfl⟩
abbrev main_v128 : Ref sig .tc := ⟨.hbm, 175, rfl⟩
abbrev main_v129 : Ref sig .tc := ⟨.hbm, 176, rfl⟩
abbrev main_c_24 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_c_25 : Ref sig .tc := ⟨.hbm, 183, rfl⟩
abbrev main_v135 : Ref sig .tc := ⟨.hbm, 184, rfl⟩
abbrev main_v136 : Ref sig .tc := ⟨.hbm, 185, rfl⟩
abbrev main_c_26 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_c_27 : Ref sig .tc := ⟨.hbm, 193, rfl⟩
abbrev main_v143 : Ref sig .tc := ⟨.hbm, 194, rfl⟩
abbrev main_v144 : Ref sig .tc := ⟨.hbm, 195, rfl⟩
abbrev main_c_28 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_cst_29 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibFusedConvLayer.lean ====
/-
  One fused layer of the kernel as a whole-array function on the extended reals.

  Given the aggregated messages A and the layer input H (both n×D), a column dc of per-node self-loop weights
  (n×1), a weight matrix W (D×D) and a bias row b (1×D):

      convRow A H dc W b (p, q) = Σ_k (A(p, k) + H(p, k)·dc(p, 0))·W(k, q) + b(0, q).

  A hidden layer then applies a per-channel scale row s and shift row sh and clamps below at 0 (bnLayer); the last
  layer adds the residual input X instead (resLayer). An entry of any of them depends on row p of A, H, dc (and X)
  only: the same rows of a block of consecutive rows give the same entry (the *_rows lemmas), which is what lets a
  grid of row blocks compute the whole array.
-/
import Idealize.ShloMosaic.PureOps.Ideal
import Idealize.ShloMosaic.PureOps.Ideal.Laws
import Idealize.ShloMosaic.Lib.ValueIdx

open scoped BigOperators

noncomputable section

namespace Cert.Gcn

open Idealize.ShloMosaic Idealize.ShloMosaic.ValueIdx

variable {n n' D : Nat}

/-- The row coordinate of an index of an n×D array. -/
abbrev rowOfIdx {a b : Nat} (i : (⟨2, ![a, b]⟩ : Shape).Idx) : Fin a := ⟨(i 0).val, idx2_lt0 i⟩
/-- The column coordinate of an index of an n×D array. -/
abbrev colOfIdx {a b : Nat} (i : (⟨2, ![a, b]⟩ : Shape).Idx) : Fin b := ⟨(i 1).val, idx2_lt1 i⟩

theorem ix2_row_col {a b : Nat} (i : (⟨2, ![a, b]⟩ : Shape).Idx) : ix2 (rowOfIdx i) (colOfIdx i) = i := by
  funext d
  apply Fin.ext
  match d with
  | ⟨0, _⟩ => rfl
  | ⟨1, _⟩ => rfl

/-- (A + H·dc)·W + b, entry by entry. -/
def convRow (A H : (⟨2, ![n, D]⟩ : Shape).Idx → EReal) (dc : (⟨2, ![n, 1]⟩ : Shape).Idx → EReal)
    (W : (⟨2, ![D, D]⟩ : Shape).Idx → EReal) (b : (⟨2, ![1, D]⟩ : Shape).Idx → EReal) :
    (⟨2, ![n, D]⟩ : Shape).Idx → EReal :=
  fun i => (∑ k : Fin D, (A (ix2 (rowOfIdx i) k) + H (ix2 (rowOfIdx i) k) * dc (ix2 (rowOfIdx i) 0)) * W (ix2 k (colOfIdx i)))
    + b (ix2 0 (colOfIdx i))

/-- A hidden layer: the convolution, scaled and shifted per channel, clamped below at 0. -/
def bnLayer (A H : (⟨2, ![n, D]⟩ : Shape).Idx → EReal) (dc : (⟨2, ![n, 1]⟩ : Shape).Idx → EReal)
    (W : (⟨2, ![D, D]⟩ : Shape).Idx → EReal) (b s sh : (⟨2, ![1, D]⟩ : Shape).Idx → EReal) :
    (⟨2, ![n, D]⟩ : Shape).Idx → EReal :=
  fun i => max (convRow A H dc W b i * s (ix2 0 (colOfIdx i)) + sh (ix2 0 (colOfIdx i))) 0

/-- The last layer: the convolution plus the residual input. -/
def resLayer (A H : (⟨2, ![n, D]⟩ : Shape).Idx → EReal) (dc : (⟨2, ![n, 1]⟩ : Shape).Idx → EReal)
    (W : (⟨2, ![D, D]⟩ : Shape).Idx → EReal) (b : (⟨2, ![1, D]⟩ : Shape).Idx → EReal)
    (X : (⟨2, ![n, D]⟩ : Shape).Idx → EReal) : (⟨2, ![n, D]⟩ : Shape).Idx → EReal :=
  fun i => convRow A H dc W b i + X i

/-- An entry of the convolution depends on its own row of A, H and dc only. -/
theorem convRow_rows (A' H' : (⟨2, ![n', D]⟩ : Shape).Idx → EReal) (dc' : (⟨2, ![n', 1]⟩ : Shape).Idx → EReal)
    (A H : (⟨2, ![n, D]⟩ : Shape).Idx → EReal) (dc : (⟨2, ![n, 1]⟩ : Shape).Idx → EReal)
    (W : (⟨2, ![D, D]⟩ : Shape).Idx → EReal) (b : (⟨2, ![1, D]⟩ : Shape).Idx → EReal)
    (y : (⟨2, ![n', D]⟩ : Shape).Idx) (i : (⟨2, ![n, D]⟩ : Shape).Idx)
    (hA : ∀ k : Fin D, A' (ix2 (rowOfIdx y) k) = A (ix2 (rowOfIdx i) k))
    (hH : ∀ k : Fin D, H' (ix2 (rowOfIdx y) k) = H (ix2 (rowOfIdx i) k))
    (hd : dc' (ix2 (rowOfIdx y) 0) = dc (ix2 (rowOfIdx i) 0))
    (hc : colOfIdx y = colOfIdx i) :
    convRow A' H' dc' W b y = convRow A H dc W b i := by
  unfold convRow
  rw [hd, hc]
  simp only [hA, hH]

theorem bnLayer_rows (A' H' : (⟨2, ![n', D]⟩ : Shape).Idx → EReal) (dc' : (⟨2, ![n', 1]⟩ : Shape).Idx → EReal)
    (A H : (⟨2, ![n, D]⟩ : Shape).Idx → EReal) (dc : (⟨2, ![n, 1]⟩ : Shape).Idx → EReal)
    (W : (⟨2, ![D, D]⟩ : Shape).Idx → EReal) (b s sh : (⟨2, ![1, D]⟩ : Shape).Idx → EReal)
    (y : (⟨2, ![n', D]⟩ : Shape).Idx) (i : (⟨2, ![n, D]⟩ : Shape).Idx)
    (hA : ∀ k : Fin D, A' (ix2 (rowOfIdx y) k) = A (ix2 (rowOfIdx i) k))
    (hH : ∀ k : Fin D, H' (ix2 (rowOfIdx y) k) = H (ix2 (rowOfIdx i) k))
    (hd : dc' (ix2 (rowOfIdx y) 0) = dc (ix2 (rowOfIdx i) 0))
    (hc : colOfIdx y = colOfIdx i) :
    bnLayer A' H' dc' W b s sh y = bnLayer A H dc W b s sh i := by
  unfold bnLayer
  rw [convRow_rows A' H' dc' A H dc W b y i hA hH hd hc, hc]

theorem resLayer_rows (A' H' X' : (⟨2, ![n', D]⟩ : Shape).Idx → EReal) (dc' : (⟨2, ![n', 1]⟩ : Shape).Idx → EReal)
    (A H X : (⟨2, ![n, D]⟩ : Shape).Idx → EReal) (dc : (⟨2, ![n, 1]⟩ : Shape).Idx → EReal)
    (W : (⟨2, ![D, D]⟩ : Shape).Idx → EReal) (b : (⟨2, ![1, D]⟩ : Shape).Idx → EReal)
    (y : (⟨2, ![n', D]⟩ : Shape).Idx) (i : (⟨2, ![n, D]⟩ : Shape).Idx)
    (hA : ∀ k : Fin D, A' (ix2 (rowOfIdx y) k) = A (ix2 (rowOfIdx i) k))
    (hH : ∀ k : Fin D, H' (ix2 (rowOfIdx y) k) = H (ix2 (rowOfIdx i) k))
    (hd : dc' (ix2 (rowOfIdx y) 0) = dc (ix2 (rowOfIdx i) 0))
    (hc : colOfIdx y = colOfIdx i) (hX : X' y = X i) :
    resLayer A' H' dc' W b X' y = resLayer A H dc W b X i := by
  unfold resLayer
  rw [convRow_rows A' H' dc' A H dc W b y i hA hH hd hc, hX]

end Cert.Gcn

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.KernelBodies.lean ====
/-
  The three kernel bodies, each as a whole-block function on the extended reals: the body's vector operations —
  the self-loop column broadcast along the channels, the product into a zero accumulator, the bias, scale and shift
  rows broadcast down the rows, the clamp at zero or the residual — read at an entry are the fused layer of the
  block's rows.
-/
import proofs.«149166_j53523882443689_2_alg».proof.Proof.Gen.KernelIdeal.Skeleton
import Idealize.ShloMosaic.Lib.Pipeline.Value
import proofs.«149166_j53523882443689_2_alg».proof.Proof.LibFusedConvLayer
import proofs.«149166_j53523882443689_2_alg».proof.Proof.LibBlockReads
import proofs.«149166_j53523882443689_2_alg».proof.Proof.LibRowReductions

set_option maxRecDepth 16384

noncomputable section

namespace Cert.KernelIdeal.Net

open Cert.KernelIdeal Cert.KernelIdeal.Gen Cert.Gcn
open Idealize.ShloMosaic Idealize.ShloMosaic.ValueIdx

theorem body0_eq (x0 x1 : Vec Ideal S5000x128 .f32) (x2 : Vec Ideal S5000x1 .f32) (x3 : Vec Ideal S128x128 .f32) (x4 x5 x6 : Vec Ideal S1x128 .f32) :
    k0_pay1 (F := Ideal) x0 x1 x2 x3 x4 x5 x6 = bnLayer x0 x1 x2 x3 x4 x5 x6 := by
  funext j
  obtain ⟨p, q, rfl⟩ : ∃ (p : Fin 5000) (q : Fin 128), j = ix2 p q := ⟨j 0, j 1, eq_ix2 j⟩
  unfold k0_pay1
  simp only [maximumf_apply, addf_apply, mulf_apply, broadcast_apply, shapeCast_self,
    Cert.Lib.BlockReads.matmul_zero_rows_apply dot_S5000x128_S128x128_S5000x128_1_0_0_1_n_n rfl rfl rfl rfl rfl rfl,
    Cert.Lib.BlockReads.broadcast_row_apply, Cert.Lib.RowReductions.broadcast_col_apply,
    Scalar.ofBits, Ideal.ofBits_def, Ideal.ofBits_zero_f32]
  rfl

theorem body1_eq (x0 x1 : Vec Ideal S5000x128 .f32) (x2 : Vec Ideal S5000x1 .f32) (x3 : Vec Ideal S128x128 .f32) (x4 x5 x6 : Vec Ideal S1x128 .f32) :
    k1_pay1 (F := Ideal) x0 x1 x2 x3 x4 x5 x6 = bnLayer x0 x1 x2 x3 x4 x5 x6 := by
  funext j
  obtain ⟨p, q, rfl⟩ : ∃ (p : Fin 5000) (q : Fin 128), j = ix2 p q := ⟨j 0, j 1, eq_ix2 j⟩
  unfold k1_pay1
  simp only [maximumf_apply, addf_apply, mulf_apply, broadcast_apply, shapeCast_self,
    Cert.Lib.BlockReads.matmul_zero_rows_apply dot_S5000x128_S128x128_S5000x128_1_0_0_1_n_n rfl rfl rfl rfl rfl rfl,
    Cert.Lib.BlockReads.broadcast_row_apply, Cert.Lib.RowReductions.broadcast_col_apply,
    Scalar.ofBits, Ideal.ofBits_def, Ideal.ofBits_zero_f32]
  rfl

theorem body2_eq (x0 x1 : Vec Ideal S5000x128 .f32) (x2 : Vec Ideal S5000x1 .f32) (x3 : Vec Ideal S128x128 .f32) (x4 : Vec Ideal S1x128 .f32) (x5 : Vec Ideal S5000x128 .f32) :
    k2_pay1 (F := Ideal) x0 x1 x2 x3 x4 x5 = resLayer x0 x1 x2 x3 x4 x5 := by
  funext j
  obtain ⟨p, q, rfl⟩ : ∃ (p : Fin 5000) (q : Fin 128), j = ix2 p q := ⟨j 0, j 1, eq_ix2 j⟩
  unfold k2_pay1
  simp only [maximumf_apply, addf_apply, mulf_apply, broadcast_apply, shapeCast_self,
    Cert.Lib.BlockReads.matmul_zero_rows_apply dot_S5000x128_S128x128_S5000x128_1_0_0_1_n_n rfl rfl rfl rfl rfl rfl,
    Cert.Lib.BlockReads.broadcast_row_apply, Cert.Lib.RowReductions.broadcast_col_apply,
    Scalar.ofBits, Ideal.ofBits_def, Ideal.ofBits_zero_f32]
  rfl

end Cert.KernelIdeal.Net

end
-- ==== Proof.Region0.lean ====
/-
  Region 0: from blocks of rows to the whole array.

  The grid has ten points; point t handles the rows 5000·t … 5000·t + 4999 of the row-blocked operands and sees the
  small operands (the weight matrix and the bias, scale and shift rows) whole. What point t writes back is therefore
  block t of ONE whole-array function of the operands as the region finds them — the fused layer, whose entries
  depend on their own row only — and the ten blocks tile the 50000 rows, so the output array ends as that function.
-/
import proofs.«149166_j53523882443689_2_alg».proof.Proof.Gen.KernelIdeal.Frame
import proofs.«149166_j53523882443689_2_alg».proof.Proof.KernelBodies

set_option maxRecDepth 16384

noncomputable section

namespace Cert.KernelIdeal.Net

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offset0 : (![0, 0] : Fin 2 → Nat) = fun _ => 0 := funext fun a => by fin_cases a <;> rfl

/-- The printed block index maps over the grid: the row-blocked windows are at block row t, the others at block 0. -/
theorem idx_facts0 : ∀ t : Fin cfg0.N,
      win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Window 3 is seen whole at every point. -/
theorem whole0_3 (c : Dev nD) (t : Fin cfg0.N) : iblk0 V c 3 t = V c main_arg1 := by
  obtain ⟨e0, e1, e2, e3, e4, e5, e6, e7, e8, e9, e10, e11, e12, e13, e14, e15⟩ := idx_facts0 t
  funext y
  show V c main_arg1 (((cfg0.win 3).blk t).view.emb y) = V c main_arg1 y
  refine congrArg (V c main_arg1) ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 is seen whole at every point. -/
theorem whole0_4 (c : Dev nD) (t : Fin cfg0.N) : iblk0 V c 4 t = V c main_v43 := by
  obtain ⟨e0, e1, e2, e3, e4, e5, e6, e7, e8, e9, e10, e11, e12, e13, e14, e15⟩ := idx_facts0 t
  funext y
  show V c main_v43 (((cfg0.win 4).blk t).view.emb y) = V c main_v43 y
  refine congrArg (V c main_v43) ?_
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5 is seen whole at every point. -/
theorem whole0_5 (c : Dev nD) (t : Fin cfg0.N) : iblk0 V c 5 t = V c main_v44 := by
  obtain ⟨e0, e1, e2, e3, e4, e5, e6, e7, e8, e9, e10, e11, e12, e13, e14, e15⟩ := idx_facts0 t
  funext y
  show V c main_v44 (((cfg0.win 5).blk t).view.emb y) = V c main_v44 y
  refine congrArg (V c main_v44) ?_
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6 is seen whole at every point. -/
theorem whole0_6 (c : Dev nD) (t : Fin cfg0.N) : iblk0 V c 6 t = V c main_v45 := by
  obtain ⟨e0, e1, e2, e3, e4, e5, e6, e7, e8, e9, e10, e11, e12, e13, e14, e15⟩ := idx_facts0 t
  funext y
  show V c main_v45 (((cfg0.win 6).blk t).view.emb y) = V c main_v45 y
  refine congrArg (V c main_v45) ?_
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Row y of window 0's block at point t is row 5000·t + y of its array. -/
theorem rows0_0 (c : Dev nD) (t : Fin cfg0.N) (j : S5000x128.Idx) (k : Fin 128) :
    iblk0 V c 0 t (ix2 (rowOfIdx j) k) = V c main_v36 (ix2 (rowOfIdx (((cfg0.win 7).blk t).view.emb j)) k) := by
  obtain ⟨e0, e1, e2, e3, e4, e5, e6, e7, e8, e9, e10, e11, e12, e13, e14, e15⟩ := idx_facts0 t
  show V c main_v36 (((cfg0.win 0).blk t).view.emb (ix2 (rowOfIdx j) k)) = _
  refine congrArg (V c main_v36) ?_
  funext a; apply Fin.ext
  match a with
  | ⟨0, _⟩ => show win0_0.index t (0 : Fin 2) * 5000 + 1 * (j 0).val = win0_7.index t (0 : Fin 2) * 5000 + 1 * (j 0).val; omega
  | ⟨1, _⟩ => show win0_0.index t (1 : Fin 2) * 128 + 1 * k.val = k.val; omega

/-- Row y of window 1's block at point t is row 5000·t + y of its array. -/
theorem rows0_1 (c : Dev nD) (t : Fin cfg0.N) (j : S5000x128.Idx) (k : Fin 128) :
    iblk0 V c 1 t (ix2 (rowOfIdx j) k) = V c main_arg0 (ix2 (rowOfIdx (((cfg0.win 7).blk t).view.emb j)) k) := by
  obtain ⟨e0, e1, e2, e3, e4, e5, e6, e7, e8, e9, e10, e11, e12, e13, e14, e15⟩ := idx_facts0 t
  show V c main_arg0 (((cfg0.win 1).blk t).view.emb (ix2 (rowOfIdx j) k)) = _
  refine congrArg (V c main_arg0) ?_
  funext a; apply Fin.ext
  match a with
  | ⟨0, _⟩ => show win0_1.index t (0 : Fin 2) * 5000 + 1 * (j 0).val = win0_7.index t (0 : Fin 2) * 5000 + 1 * (j 0).val; omega
  | ⟨1, _⟩ => show win0_1.index t (1 : Fin 2) * 128 + 1 * k.val = k.val; omega

/-- Row y of window 2's block at point t is row 5000·t + y of its array. -/
theorem rows0_2 (c : Dev nD) (t : Fin cfg0.N) (j : S5000x128.Idx) (k : Fin 1) :
    iblk0 V c 2 t (ix2 (rowOfIdx j) k) = V c main_v8 (ix2 (rowOfIdx (((cfg0.win 7).blk t).view.emb j)) k) := by
  obtain ⟨e0, e1, e2, e3, e4, e5, e6, e7, e8, e9, e10, e11, e12, e13, e14, e15⟩ := idx_facts0 t
  show V c main_v8 (((cfg0.win 2).blk t).view.emb (ix2 (rowOfIdx j) k)) = _
  refine congrArg (V c main_v8) ?_
  funext a; apply Fin.ext
  match a with
  | ⟨0, _⟩ => show win0_2.index t (0 : Fin 2) * 5000 + 1 * (j 0).val = win0_7.index t (0 : Fin 2) * 5000 + 1 * (j 0).val; omega
  | ⟨1, _⟩ => show win0_2.index t (1 : Fin 2) * 1 + 1 * k.val = k.val; omega

/-- What point t writes back is block t of the fused layer of the operands as the region finds them. -/
theorem flushed0_eq (c : Dev nD) (t : Fin cfg0.N) :
    (dat0 (F := Ideal) V c).flushed 7 t = ((cfg0.win 7).blk t).view.read (Elt Ideal)
      (bnLayer (V c main_v36 : S50000x128.Idx → EReal) (V c main_arg0 : S50000x128.Idx → EReal) (V c main_v8 : S50000x1.Idx → EReal) (V c main_arg1 : S128x128.Idx → EReal) (V c main_v43 : S1x128.Idx → EReal) (V c main_v44 : S1x128.Idx → EReal) (V c main_v45 : S1x128.Idx → EReal)) := by
  show (cfg0.win 7).cut (grid0.coords t) ((dat0 V c).after 7 t) = _
  rw [after0_7]
  unfold out0_7
  rw [View.canon_unit_zero zero_offset0]
  simp only [View.ld_unit_zero (S := S5000x128) zero_offset0, View.ld_unit_zero (S := S5000x1) zero_offset0,
    View.ld_unit_zero (S := S128x128) zero_offset0, View.ld_unit_zero (S := S1x128) zero_offset0]
  rw [body0_eq, whole0_3 V c t, whole0_4 V c t, whole0_5 V c t, whole0_6 V c t]
  obtain ⟨e0, e1, e2, e3, e4, e5, e6, e7, e8, e9, e10, e11, e12, e13, e14, e15⟩ := idx_facts0 t
  funext j
  have hc : colOfIdx j = colOfIdx (((cfg0.win 7).blk t).view.emb j) := by
    apply Fin.ext
    show (j 1).val = win0_7.index t (1 : Fin 2) * 128 + 1 * (j 1).val
    omega
  exact bnLayer_rows _ _ _ _ _ _ _ _ _ _ j _ (rows0_0 V c t j) (rows0_1 V c t j) (rows0_2 V c t j 0) hc

/-- An index of the output array is in point t's block iff each coordinate is in the block's range on its axis. -/
theorem mem_blk0 (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v46).slice (win0_7.rect t)).set ↔ _
  rw [View.set_slice_whole, Rect.mem_set_unit]
  exact Iff.rfl

/-- The ten blocks of 5000 rows tile the 50000 rows: row r is in the block of point r / 5000. -/
theorem cover0 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : (i 0).val / 5000 < cfg0.N := by
    show (i 0).val / 5000 < grid0.N
    rw [N_0]; omega
  refine ⟨⟨(i 0).val / 5000, hN⟩, flush0_7 _, ?_⟩
  rw [mem_blk0]
  obtain ⟨e0, e1, -⟩ := idx_facts0 ⟨(i 0).val / 5000, hN⟩
  intro a
  match a with
  | ⟨0, _⟩ =>
    show win0_7.index ⟨(i 0).val / 5000, hN⟩ (0 : Fin 2) * 5000 ≤ (i 0).val
      ∧ (i 0).val < win0_7.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win0_7.index ⟨(i 0).val / 5000, hN⟩ (1 : Fin 2) * 128 ≤ (i 1).val
      ∧ (i 1).val < win0_7.index ⟨(i 0).val / 5000, hN⟩ (1 : Fin 2) * 128 + 128
    rw [e1]
    omega

/-- The output array after the region: the fused layer of the operands as the region finds them. -/
theorem final0 (c : Dev nD) :
    (dat0 (F := Ideal) V c).arrAt 7 cfg0.N = bnLayer (V c main_v36 : S50000x128.Idx → EReal) (V c main_arg0 : S50000x128.Idx → EReal) (V c main_v8 : S50000x1.Idx → EReal) (V c main_arg1 : S128x128.Idx → EReal) (V c main_v43 : S1x128.Idx → EReal) (V c main_v44 : S1x128.Idx → EReal) (V c main_v45 : S1x128.Idx → EReal) :=
  (dat0 (F := Ideal) V c).arrAt_eq_of_cover 7 _ (fun t _ => flushed0_eq V c t) cover0

end Cert.KernelIdeal.Net

end
-- ==== Proof.Region1.lean ====
/-
  Region 1: from blocks of rows to the whole array.

  The grid has ten points; point t handles the rows 5000·t … 5000·t + 4999 of the row-blocked operands and sees the
  small operands (the weight matrix and the bias, scale and shift rows) whole. What point t writes back is therefore
  block t of ONE whole-array function of the operands as the region finds them — the fused layer, whose entries
  depend on their own row only — and the ten blocks tile the 50000 rows, so the output array ends as that function.
-/
import proofs.«149166_j53523882443689_2_alg».proof.Proof.Gen.KernelIdeal.Frame
import proofs.«149166_j53523882443689_2_alg».proof.Proof.KernelBodies

set_option maxRecDepth 16384

noncomputable section

namespace Cert.KernelIdeal.Net

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offset1 : (![0, 0] : Fin 2 → Nat) = fun _ => 0 := funext fun a => by fin_cases a <;> rfl

/-- The printed block index maps over the grid: the row-blocked windows are at block row t, the others at block 0. -/
theorem idx_facts1 : ∀ t : Fin cfg1.N,
      win1_7.index t (0 : Fin 2) = t.val ∧ win1_7.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Window 3 is seen whole at every point. -/
theorem whole1_3 (c : Dev nD) (t : Fin cfg1.N) : iblk1 V c 3 t = V c main_arg7 := by
  obtain ⟨e0, e1, e2, e3, e4, e5, e6, e7, e8, e9, e10, e11, e12, e13, e14, e15⟩ := idx_facts1 t
  funext y
  show V c main_arg7 (((cfg1.win 3).blk t).view.emb y) = V c main_arg7 y
  refine congrArg (V c main_arg7) ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Window 4 is seen whole at every point. -/
theorem whole1_4 (c : Dev nD) (t : Fin cfg1.N) : iblk1 V c 4 t = V c main_v66 := by
  obtain ⟨e0, e1, e2, e3, e4, e5, e6, e7, e8, e9, e10, e11, e12, e13, e14, e15⟩ := idx_facts1 t
  funext y
  show V c main_v66 (((cfg1.win 4).blk t).view.emb y) = V c main_v66 y
  refine congrArg (V c main_v66) ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5 is seen whole at every point. -/
theorem whole1_5 (c : Dev nD) (t : Fin cfg1.N) : iblk1 V c 5 t = V c main_v67 := by
  obtain ⟨e0, e1, e2, e3, e4, e5, e6, e7, e8, e9, e10, e11, e12, e13, e14, e15⟩ := idx_facts1 t
  funext y
  show V c main_v67 (((cfg1.win 5).blk t).view.emb y) = V c main_v67 y
  refine congrArg (V c main_v67) ?_
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6 is seen whole at every point. -/
theorem whole1_6 (c : Dev nD) (t : Fin cfg1.N) : iblk1 V c 6 t = V c main_v68 := by
  obtain ⟨e0, e1, e2, e3, e4, e5, e6, e7, e8, e9, e10, e11, e12, e13, e14, e15⟩ := idx_facts1 t
  funext y
  show V c main_v68 (((cfg1.win 6).blk t).view.emb y) = V c main_v68 y
  refine congrArg (V c main_v68) ?_
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Row y of window 0's block at point t is row 5000·t + y of its array. -/
theorem rows1_0 (c : Dev nD) (t : Fin cfg1.N) (j : S5000x128.Idx) (k : Fin 128) :
    iblk1 V c 0 t (ix2 (rowOfIdx j) k) = V c main_v59 (ix2 (rowOfIdx (((cfg1.win 7).blk t).view.emb j)) k) := by
  obtain ⟨e0, e1, e2, e3, e4, e5, e6, e7, e8, e9, e10, e11, e12, e13, e14, e15⟩ := idx_facts1 t
  show V c main_v59 (((cfg1.win 0).blk t).view.emb (ix2 (rowOfIdx j) k)) = _
  refine congrArg (V c main_v59) ?_
  funext a; apply Fin.ext
  match a with
  | ⟨0, _⟩ => show win1_0.index t (0 : Fin 2) * 5000 + 1 * (j 0).val = win1_7.index t (0 : Fin 2) * 5000 + 1 * (j 0).val; omega
  | ⟨1, _⟩ => show win1_0.index t (1 : Fin 2) * 128 + 1 * k.val = k.val; omega

/-- Row y of window 1's block at point t is row 5000·t + y of its array. -/
theorem rows1_1 (c : Dev nD) (t : Fin cfg1.N) (j : S5000x128.Idx) (k : Fin 128) :
    iblk1 V c 1 t (ix2 (rowOfIdx j) k) = V c main_v46 (ix2 (rowOfIdx (((cfg1.win 7).blk t).view.emb j)) k) := by
  obtain ⟨e0, e1, e2, e3, e4, e5, e6, e7, e8, e9, e10, e11, e12, e13, e14, e15⟩ := idx_facts1 t
  show V c main_v46 (((cfg1.win 1).blk t).view.emb (ix2 (rowOfIdx j) k)) = _
  refine congrArg (V c main_v46) ?_
  funext a; apply Fin.ext
  match a with
  | ⟨0, _⟩ => show win1_1.index t (0 : Fin 2) * 5000 + 1 * (j 0).val = win1_7.index t (0 : Fin 2) * 5000 + 1 * (j 0).val; omega
  | ⟨1, _⟩ => show win1_1.index t (1 : Fin 2) * 128 + 1 * k.val = k.val; omega

/-- Row y of window 2's block at point t is row 5000·t + y of its array. -/
theorem rows1_2 (c : Dev nD) (t : Fin cfg1.N) (j : S5000x128.Idx) (k : Fin 1) :
    iblk1 V c 2 t (ix2 (rowOfIdx j) k) = V c main_v8 (ix2 (rowOfIdx (((cfg1.win 7).blk t).view.emb j)) k) := by
  obtain ⟨e0, e1, e2, e3, e4, e5, e6, e7, e8, e9, e10, e11, e12, e13, e14, e15⟩ := idx_facts1 t
  show V c main_v8 (((cfg1.win 2).blk t).view.emb (ix2 (rowOfIdx j) k)) = _
  refine congrArg (V c main_v8) ?_
  funext a; apply Fin.ext
  match a with
  | ⟨0, _⟩ => show win1_2.index t (0 : Fin 2) * 5000 + 1 * (j 0).val = win1_7.index t (0 : Fin 2) * 5000 + 1 * (j 0).val; omega
  | ⟨1, _⟩ => show win1_2.index t (1 : Fin 2) * 1 + 1 * k.val = k.val; omega

/-- What point t writes back is block t of the fused layer of the operands as the region finds them. -/
theorem flushed1_eq (c : Dev nD) (t : Fin cfg1.N) :
    (dat1 (F := Ideal) V c).flushed 7 t = ((cfg1.win 7).blk t).view.read (Elt Ideal)
      (bnLayer (V c main_v59 : S50000x128.Idx → EReal) (V c main_v46 : S50000x128.Idx → EReal) (V c main_v8 : S50000x1.Idx → EReal) (V c main_arg7 : S128x128.Idx → EReal) (V c main_v66 : S1x128.Idx → EReal) (V c main_v67 : S1x128.Idx → EReal) (V c main_v68 : S1x128.Idx → EReal)) := by
  show (cfg1.win 7).cut (grid1.coords t) ((dat1 V c).after 7 t) = _
  rw [after1_7]
  unfold out1_7
  rw [View.canon_unit_zero zero_offset1]
  simp only [View.ld_unit_zero (S := S5000x128) zero_offset1, View.ld_unit_zero (S := S5000x1) zero_offset1,
    View.ld_unit_zero (S := S128x128) zero_offset1, View.ld_unit_zero (S := S1x128) zero_offset1]
  rw [body1_eq, whole1_3 V c t, whole1_4 V c t, whole1_5 V c t, whole1_6 V c t]
  obtain ⟨e0, e1, e2, e3, e4, e5, e6, e7, e8, e9, e10, e11, e12, e13, e14, e15⟩ := idx_facts1 t
  funext j
  have hc : colOfIdx j = colOfIdx (((cfg1.win 7).blk t).view.emb j) := by
    apply Fin.ext
    show (j 1).val = win1_7.index t (1 : Fin 2) * 128 + 1 * (j 1).val
    omega
  exact bnLayer_rows _ _ _ _ _ _ _ _ _ _ j _ (rows1_0 V c t j) (rows1_1 V c t j) (rows1_2 V c t j 0) hc

/-- An index of the output array is in point t's block iff each coordinate is in the block's range on its axis. -/
theorem mem_blk1 (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v69).slice (win1_7.rect t)).set ↔ _
  rw [View.set_slice_whole, Rect.mem_set_unit]
  exact Iff.rfl

/-- The ten blocks of 5000 rows tile the 50000 rows: row r is in the block of point r / 5000. -/
theorem cover1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : (i 0).val / 5000 < cfg1.N := by
    show (i 0).val / 5000 < grid1.N
    rw [N_1]; omega
  refine ⟨⟨(i 0).val / 5000, hN⟩, flush1_7 _, ?_⟩
  rw [mem_blk1]
  obtain ⟨e0, e1, -⟩ := idx_facts1 ⟨(i 0).val / 5000, hN⟩
  intro a
  match a with
  | ⟨0, _⟩ =>
    show win1_7.index ⟨(i 0).val / 5000, hN⟩ (0 : Fin 2) * 5000 ≤ (i 0).val
      ∧ (i 0).val < win1_7.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win1_7.index ⟨(i 0).val / 5000, hN⟩ (1 : Fin 2) * 128 ≤ (i 1).val
      ∧ (i 1).val < win1_7.index ⟨(i 0).val / 5000, hN⟩ (1 : Fin 2) * 128 + 128
    rw [e1]
    omega

/-- The output array after the region: the fused layer of the operands as the region finds them. -/
theorem final1 (c : Dev nD) :
    (dat1 (F := Ideal) V c).arrAt 7 cfg1.N = bnLayer (V c main_v59 : S50000x128.Idx → EReal) (V c main_v46 : S50000x128.Idx → EReal) (V c main_v8 : S50000x1.Idx → EReal) (V c main_arg7 : S128x128.Idx → EReal) (V c main_v66 : S1x128.Idx → EReal) (V c main_v67 : S1x128.Idx → EReal) (V c main_v68 : S1x128.Idx → EReal) :=
  (dat1 (F := Ideal) V c).arrAt_eq_of_cover 7 _ (fun t _ => flushed1_eq V c t) cover1

end Cert.KernelIdeal.Net

end
-- ==== Proof.Region2.lean ====
/-
  Region 2: from blocks of rows to the whole array.

  The grid has ten points; point t handles the rows 5000·t … 5000·t + 4999 of the row-blocked operands and sees the
  small operands (the weight matrix and the bias, scale and shift rows) whole. What point t writes back is therefore
  block t of ONE whole-array function of the operands as the region finds them — the fused layer, whose entries
  depend on their own row only — and the ten blocks tile the 50000 rows, so the output array ends as that function.
-/
import proofs.«149166_j53523882443689_2_alg».proof.Proof.Gen.KernelIdeal.Frame
import proofs.«149166_j53523882443689_2_alg».proof.Proof.KernelBodies

set_option maxRecDepth 16384

noncomputable section

namespace Cert.KernelIdeal.Net

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offset2 : (![0, 0] : Fin 2 → Nat) = fun _ => 0 := funext fun a => by fin_cases a <;> rfl

/-- The printed block index maps over the grid: the row-blocked windows are at block row t, the others at block 0. -/
theorem idx_facts2 : ∀ t : Fin cfg2.N,
      win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 3 is seen whole at every point. -/
theorem whole2_3 (c : Dev nD) (t : Fin cfg2.N) : iblk2 V c 3 t = V c main_arg13 := by
  obtain ⟨e0, e1, e2, e3, e4, e5, e6, e7, e8, e9, e10, e11, e12, e13⟩ := idx_facts2 t
  funext y
  show V c main_arg13 (((cfg2.win 3).blk t).view.emb y) = V c main_arg13 y
  refine congrArg (V c main_arg13) ?_
  funext a; apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4 is seen whole at every point. -/
theorem whole2_4 (c : Dev nD) (t : Fin cfg2.N) : iblk2 V c 4 t = V c main_v83 := by
  obtain ⟨e0, e1, e2, e3, e4, e5, e6, e7, e8, e9, e10, e11, e12, e13⟩ := idx_facts2 t
  funext y
  show V c main_v83 (((cfg2.win 4).blk t).view.emb y) = V c main_v83 y
  refine congrArg (V c main_v83) ?_
  funext a; apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Row y of window 0's block at point t is row 5000·t + y of its array. -/
theorem rows2_0 (c : Dev nD) (t : Fin cfg2.N) (j : S5000x128.Idx) (k : Fin 128) :
    iblk2 V c 0 t (ix2 (rowOfIdx j) k) = V c main_v82 (ix2 (rowOfIdx (((cfg2.win 6).blk t).view.emb j)) k) := by
  obtain ⟨e0, e1, e2, e3, e4, e5, e6, e7, e8, e9, e10, e11, e12, e13⟩ := idx_facts2 t
  show V c main_v82 (((cfg2.win 0).blk t).view.emb (ix2 (rowOfIdx j) k)) = _
  refine congrArg (V c main_v82) ?_
  funext a; apply Fin.ext
  match a with
  | ⟨0, _⟩ => show win2_0.index t (0 : Fin 2) * 5000 + 1 * (j 0).val = win2_6.index t (0 : Fin 2) * 5000 + 1 * (j 0).val; omega
  | ⟨1, _⟩ => show win2_0.index t (1 : Fin 2) * 128 + 1 * k.val = k.val; omega

/-- Row y of window 1's block at point t is row 5000·t + y of its array. -/
theorem rows2_1 (c : Dev nD) (t : Fin cfg2.N) (j : S5000x128.Idx) (k : Fin 128) :
    iblk2 V c 1 t (ix2 (rowOfIdx j) k) = V c main_v69 (ix2 (rowOfIdx (((cfg2.win 6).blk t).view.emb j)) k) := by
  obtain ⟨e0, e1, e2, e3, e4, e5, e6, e7, e8, e9, e10, e11, e12, e13⟩ := idx_facts2 t
  show V c main_v69 (((cfg2.win 1).blk t).view.emb (ix2 (rowOfIdx j) k)) = _
  refine congrArg (V c main_v69) ?_
  funext a; apply Fin.ext
  match a with
  | ⟨0, _⟩ => show win2_1.index t (0 : Fin 2) * 5000 + 1 * (j 0).val = win2_6.index t (0 : Fin 2) * 5000 + 1 * (j 0).val; omega
  | ⟨1, _⟩ => show win2_1.index t (1 : Fin 2) * 128 + 1 * k.val = k.val; omega

/-- Row y of window 2's block at point t is row 5000·t + y of its array. -/
theorem rows2_2 (c : Dev nD) (t : Fin cfg2.N) (j : S5000x128.Idx) (k : Fin 1) :
    iblk2 V c 2 t (ix2 (rowOfIdx j) k) = V c main_v8 (ix2 (rowOfIdx (((cfg2.win 6).blk t).view.emb j)) k) := by
  obtain ⟨e0, e1, e2, e3, e4, e5, e6, e7, e8, e9, e10, e11, e12, e13⟩ := idx_facts2 t
  show V c main_v8 (((cfg2.win 2).blk t).view.emb (ix2 (rowOfIdx j) k)) = _
  refine congrArg (V c main_v8) ?_
  funext a; apply Fin.ext
  match a with
  | ⟨0, _⟩ => show win2_2.index t (0 : Fin 2) * 5000 + 1 * (j 0).val = win2_6.index t (0 : Fin 2) * 5000 + 1 * (j 0).val; omega
  | ⟨1, _⟩ => show win2_2.index t (1 : Fin 2) * 1 + 1 * k.val = k.val; omega

/-- Row y of window 5's block at point t is row 5000·t + y of its array. -/
theorem rows2_5 (c : Dev nD) (t : Fin cfg2.N) (j : S5000x128.Idx) (k : Fin 128) :
    iblk2 V c 5 t (ix2 (rowOfIdx j) k) = V c main_arg0 (ix2 (rowOfIdx (((cfg2.win 6).blk t).view.emb j)) k) := by
  obtain ⟨e0, e1, e2, e3, e4, e5, e6, e7, e8, e9, e10, e11, e12, e13⟩ := idx_facts2 t
  show V c main_arg0 (((cfg2.win 5).blk t).view.emb (ix2 (rowOfIdx j) k)) = _
  refine congrArg (V c main_arg0) ?_
  funext a; apply Fin.ext
  match a with
  | ⟨0, _⟩ => show win2_5.index t (0 : Fin 2) * 5000 + 1 * (j 0).val = win2_6.index t (0 : Fin 2) * 5000 + 1 * (j 0).val; omega
  | ⟨1, _⟩ => show win2_5.index t (1 : Fin 2) * 128 + 1 * k.val = k.val; omega

/-- What point t writes back is block t of the fused layer of the operands as the region finds them. -/
theorem flushed2_eq (c : Dev nD) (t : Fin cfg2.N) :
    (dat2 (F := Ideal) V c).flushed 6 t = ((cfg2.win 6).blk t).view.read (Elt Ideal)
      (resLayer (V c main_v82 : S50000x128.Idx → EReal) (V c main_v69 : S50000x128.Idx → EReal) (V c main_v8 : S50000x1.Idx → EReal) (V c main_arg13 : S128x128.Idx → EReal) (V c main_v83 : S1x128.Idx → EReal) (V c main_arg0 : S50000x128.Idx → EReal)) := by
  show (cfg2.win 6).cut (grid2.coords t) ((dat2 V c).after 6 t) = _
  rw [after2_6]
  unfold out2_6
  rw [View.canon_unit_zero zero_offset2]
  simp only [View.ld_unit_zero (S := S5000x128) zero_offset2, View.ld_unit_zero (S := S5000x1) zero_offset2,
    View.ld_unit_zero (S := S128x128) zero_offset2, View.ld_unit_zero (S := S1x128) zero_offset2]
  rw [body2_eq, whole2_3 V c t, whole2_4 V c t]
  obtain ⟨e0, e1, e2, e3, e4, e5, e6, e7, e8, e9, e10, e11, e12, e13⟩ := idx_facts2 t
  funext j
  have hc : colOfIdx j = colOfIdx (((cfg2.win 6).blk t).view.emb j) := by
    apply Fin.ext
    show (j 1).val = win2_6.index t (1 : Fin 2) * 128 + 1 * (j 1).val
    omega
  have hX : iblk2 V c 5 t j = V c main_arg0 (((cfg2.win 6).blk t).view.emb j) := by
    show V c main_arg0 (((cfg2.win 5).blk t).view.emb j) = _
    refine congrArg (V c main_arg0) ?_
    funext a; apply Fin.ext
    match a with
    | ⟨0, _⟩ => show win2_5.index t (0 : Fin 2) * 5000 + 1 * (j 0).val = win2_6.index t (0 : Fin 2) * 5000 + 1 * (j 0).val; omega
    | ⟨1, _⟩ => show win2_5.index t (1 : Fin 2) * 128 + 1 * (j 1).val = win2_6.index t (1 : Fin 2) * 128 + 1 * (j 1).val; omega
  exact resLayer_rows _ _ _ _ _ _ _ _ _ _ j _ (rows2_0 V c t j) (rows2_1 V c t j) (rows2_2 V c t j 0) hc hX

/-- An index of the output array is in point t's block iff each coordinate is in the block's range on its axis. -/
theorem mem_blk2 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v84).slice (win2_6.rect t)).set ↔ _
  rw [View.set_slice_whole, Rect.mem_set_unit]
  exact Iff.rfl

/-- The ten blocks of 5000 rows tile the 50000 rows: row r is in the block of point r / 5000. -/
theorem cover2 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : (i 0).val / 5000 < cfg2.N := by
    show (i 0).val / 5000 < grid2.N
    rw [N_2]; omega
  refine ⟨⟨(i 0).val / 5000, hN⟩, flush2_6 _, ?_⟩
  rw [mem_blk2]
  obtain ⟨e0, e1, -⟩ := idx_facts2 ⟨(i 0).val / 5000, hN⟩
  intro a
  match a with
  | ⟨0, _⟩ =>
    show win2_6.index ⟨(i 0).val / 5000, hN⟩ (0 : Fin 2) * 5000 ≤ (i 0).val
      ∧ (i 0).val < win2_6.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win2_6.index ⟨(i 0).val / 5000, hN⟩ (1 : Fin 2) * 128 ≤ (i 1).val
      ∧ (i 1).val < win2_6.index ⟨(i 0).val / 5000, hN⟩ (1 : Fin 2) * 128 + 128
    rw [e1]
    omega

/-- The output array after the region: the fused layer of the operands as the region finds them. -/
theorem final2 (c : Dev nD) :
    (dat2 (F := Ideal) V c).arrAt 6 cfg2.N = resLayer (V c main_v82 : S50000x128.Idx → EReal) (V c main_v69 : S50000x128.Idx → EReal) (V c main_v8 : S50000x1.Idx → EReal) (V c main_arg13 : S128x128.Idx → EReal) (V c main_v83 : S1x128.Idx → EReal) (V c main_arg0 : S50000x128.Idx → EReal) :=
  (dat2 (F := Ideal) V c).arrAt_eq_of_cover 6 _ (fun t _ => flushed2_eq V c t) cover2

end Cert.KernelIdeal.Net

end
-- ==== Proof.KernelRun.lean ====
/-
  The run of the three-region program with its result named.

  The program is six segments: a stretch of host operations, a kernel region, and so on three times. The
  contents of every buffer at each segment boundary are a fold from the launch memory: a stretch leaves what its
  operations compute, a region leaves each of its output arrays at what its grid points wrote back and every
  other buffer as it found it. The launch over these segments ends with every unscoped buffer at the last
  boundary's contents; read at the result buffer this names the program's result, and read at an argument it
  gives the argument back unchanged.
-/
import proofs.«149166_j53523882443689_2_alg».proof.Proof.Gen.KernelIdeal.Frame

set_option maxRecDepth 16384

noncomputable section

namespace Cert.KernelIdeal.Net

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's
    contents of it, and every argument as launched. -/
theorem run_result : θ_run defs (onTc (τ := τ) (main (F := F))) ⟨m, fun _ => 0, ρ⟩ (fun r => ∀ c : Dev nD,
      r.2.mem ((c.tc : Thread nD τ).loc main_v84) = W6 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v84 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c)⟩)

end Cert.KernelIdeal.Net

end
-- ==== Proof.LibScatterRows.lean ====
/-
  A host scatter whose every update is one row of D entries, addressed by a one-component index: the operand is
  an N×D array, there are M update rows, and row r of the updates is aimed at the operand row whose number is the
  signed reading of index word r; its entry q goes to entry q of that row. An update row whose number is outside
  0 … N − 1 is dropped. Here: update (r, q) lands on element (p, q') exactly when index word r reads p and q = q';
  and, on the extended reals with an add body, the result at (p, q') is the operand's element plus the sum of the
  update entries (r, q') over the rows r whose index word reads p.
-/
import Idealize.ShloMosaic.PureOps.Ideal
import Idealize.ShloMosaic.PureOps.Ideal.Laws
import Idealize.ShloMosaic.Lib.ValueIdx

noncomputable section

namespace Cert.Lib.ScatterRows

open Idealize.ShloMosaic Idealize.ShloMosaic.ValueIdx

variable {N M D w : Nat}

/-- The dimension numbers of such a scatter: axis 1 of the updates is the window axis (a row's entries), the
    operand's axis 0 is inserted and addressed by component 0 of the index vector, the index vector along axis 1. -/
abbrev dims (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ :=
  ScatterDims.mk [1] [0] [0] 1 wf

/-- Update (r, q) reads its index at row r of the M×1 index array. -/
theorem siIdx_eq (wf : ScatterDims.WF ⟨2, ![N, D]⟩ ⟨2, ![M, 1]⟩ ⟨2, ![M, D]⟩ [1] [0] [0] 1)
    (j : (⟨2, ![M, D]⟩ : Shape).Idx) (c : Fin (dims wf).scatterDimsToOperandDims.length) :
    (dims wf).siIdx j c = ix2 (⟨(j 0).val, idx2_lt0 j⟩ : Fin M) (0 : Fin 1) := by
  funext b
  apply Fin.ext
  match b with
  | ⟨0, _⟩ => rfl
  | ⟨1, _⟩ =>
    have : c.val < 1 := c.isLt
    have : c.val = 0 := by omega
    show c.val = 0
    exact this

/-- On the operand's row axis the start of update (r, q) is the signed reading of index word r. -/
theorem start_zero (wf : ScatterDims.WF ⟨2, ![N, D]⟩ ⟨2, ![M, 1]⟩ ⟨2, ![M, D]⟩ [1] [0] [0] 1)
    (j : (⟨2, ![M, D]⟩ : Shape).Idx) (idx : IVec ⟨2, ![M, 1]⟩ w) :
    (dims wf).start j idx (0 : Fin 2) = (idx (ix2 (⟨(j 0).val, idx2_lt0 j⟩ : Fin M) (0 : Fin 1))).toInt := by
  unfold ScatterDims.start
  have ha : (0 : Fin 2) ∈ ([0] : List (Fin 2)) := List.mem_singleton_self _
  rw [dif_pos ha]
  exact congrArg (fun k => (idx k).toInt) (siIdx_eq wf j _)

/-- On the operand's entry axis, which no index component names, the start is 0. -/
theorem start_one (wf : ScatterDims.WF ⟨2, ![N, D]⟩ ⟨2, ![M, 1]⟩ ⟨2, ![M, D]⟩ [1] [0] [0] 1)
    (j : (⟨2, ![M, D]⟩ : Shape).Idx) (idx : IVec ⟨2, ![M, 1]⟩ w) :
    (dims wf).start j idx (1 : Fin 2) = 0 := by
  unfold ScatterDims.start
  rw [dif_neg (show (1 : Fin 2) ∉ ([0] : List (Fin 2)) from by decide)]

/-- An update has no extent along the operand's row axis. -/
theorem window_zero (wf : ScatterDims.WF ⟨2, ![N, D]⟩ ⟨2, ![M, 1]⟩ ⟨2, ![M, D]⟩ [1] [0] [0] 1)
    (j : (⟨2, ![M, D]⟩ : Shape).Idx) : (dims wf).window j (0 : Fin 2) = 0 := by
  unfold ScatterDims.window
  rw [dif_neg]
  show (0 : Fin 2) ∉ (List.finRange 2).filter (· ∉ ([0] : List (Fin 2)))
  decide

/-- Along the operand's entry axis the window coordinate of update (r, q) is q. -/
theorem window_one (wf : ScatterDims.WF ⟨2, ![N, D]⟩ ⟨2, ![M, 1]⟩ ⟨2, ![M, D]⟩ [1] [0] [0] 1)
    (j : (⟨2, ![M, D]⟩ : Shape).Idx) : (dims wf).window j (1 : Fin 2) = (j 1).val := by
  unfold ScatterDims.window
  have h1 : (1 : Fin 2) ∈ (dims wf).sKept := by
    show (1 : Fin 2) ∈ (List.finRange 2).filter (· ∉ ([0] : List (Fin 2)))
    decide
  rw [dif_pos h1]
  rfl

/-- Update (r, q) lands on element (p, q') exactly when the index word of row r, read signed, is p, and q = q'. -/
theorem resultIdx_iff (wf : ScatterDims.WF ⟨2, ![N, D]⟩ ⟨2, ![M, 1]⟩ ⟨2, ![M, D]⟩ [1] [0] [0] 1)
    (j : (⟨2, ![M, D]⟩ : Shape).Idx) (idx : IVec ⟨2, ![M, 1]⟩ w) (i : (⟨2, ![N, D]⟩ : Shape).Idx) :
    (dims wf).resultIdx? j idx = some i ↔
      (idx (ix2 (⟨(j 0).val, idx2_lt0 j⟩ : Fin M) (0 : Fin 1))).toInt = ((i 0).val : Int) ∧ (j 1).val = (i 1).val := by
  unfold ScatterDims.resultIdx?
  have hlt0 : (i 0).val < N := idx2_lt0 i
  have hlt1 : (i 1).val < D := idx2_lt1 i
  have hj1 : (j 1).val < D := idx2_lt1 j
  constructor
  · intro h
    split_ifs at h with hc
    have h0 : ((dims wf).start j idx 0 + ((dims wf).window j 0 : Nat)).toNat = (i 0).val :=
      congrArg (fun k => (k 0).val) (Option.some.inj h)
    have h1 : ((dims wf).start j idx 1 + ((dims wf).window j 1 : Nat)).toNat = (i 1).val :=
      congrArg (fun k => (k 1).val) (Option.some.inj h)
    have hc0 := hc 0
    rw [start_zero, window_zero] at hc0 h0
    rw [start_one, window_one] at h1
    constructor
    · omega
    · omega
  · rintro ⟨h, hq⟩
    have hc : ∀ a : Fin 2, 0 ≤ (dims wf).start j idx a + ((dims wf).window j a : Nat)
        ∧ (dims wf).start j idx a + ((dims wf).window j a : Nat) < ((⟨2, ![N, D]⟩ : Shape).size a : Nat) := fun a => by
      match a with
      | ⟨0, _⟩ =>
        show 0 ≤ (dims wf).start j idx (0 : Fin 2) + ((dims wf).window j (0 : Fin 2) : Nat)
          ∧ (dims wf).start j idx (0 : Fin 2) + ((dims wf).window j (0 : Fin 2) : Nat) < (N : Int)
        rw [start_zero, window_zero, h]
        omega
      | ⟨1, _⟩ =>
        show 0 ≤ (dims wf).start j idx (1 : Fin 2) + ((dims wf).window j (1 : Fin 2) : Nat)
          ∧ (dims wf).start j idx (1 : Fin 2) + ((dims wf).window j (1 : Fin 2) : Nat) < (D : Int)
        rw [start_one, window_one]
        omega
    rw [dif_pos hc]
    congr 1
    funext a
    apply Fin.ext
    match a with
    | ⟨0, _⟩ =>
      show ((dims wf).start j idx (0 : Fin 2) + ((dims wf).window j (0 : Fin 2) : Nat)).toNat = (i 0).val
      rw [start_zero, window_zero, h]
      omega
    | ⟨1, _⟩ =>
      show ((dims wf).start j idx (1 : Fin 2) + ((dims wf).window j (1 : Fin 2) : Nat)).toNat = (i 1).val
      rw [start_one, window_one]
      omega

/-- The accumulating scatter at element (p, q'): the operand's element plus the update entries (r, q) with q = q'
    whose row's index word reads p. -/
theorem scatterAdd_apply (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (i : (⟨2, ![N, D]⟩ : Shape).Idx) :
    Ideal.hostScatterAdd (dims wf) x idx upd i
      = x i + ∑ j : (⟨2, ![M, D]⟩ : Shape).Idx,
          if (idx (ix2 (⟨(j 0).val, idx2_lt0 j⟩ : Fin M) (0 : Fin 1))).toInt = ((i 0).val : Int) ∧ (j 1).val = (i 1).val
          then upd j else 0 := by
  unfold Ideal.hostScatterAdd
  rw [Finset.sum_filter]
  congr 1
  refine Finset.sum_congr rfl fun j _ => ?_
  simp only [resultIdx_iff]

end Cert.Lib.ScatterRows

end
-- ==== Proof.LibScatterCount.lean ====
/-
  A host scatter with an add body whose every update is one element, addressed by a one-component
  index: the operand has N elements, there are M updates, update j lands on the element whose number
  is the signed reading of index word j (and is dropped when that number is outside 0 … N − 1).
  On the extended reals the result at element i is the operand's element plus the sum of the updates
  whose index word reads i.
-/
import Idealize.ShloMosaic.PureOps.Ideal
import Idealize.ShloMosaic.PureOps.Ideal.Laws
import Idealize.ShloMosaic.Lib.ValueIdx

noncomputable section

namespace Cert.Lib.ScatterCount

open Idealize.ShloMosaic Idealize.ShloMosaic.ValueIdx

variable {N M w : Nat}

/-- The dimension numbers of such a scatter: no window axes in the updates, the operand's one axis
    inserted and addressed by component 0 of the index vector, the index vector along axis 1. -/
abbrev dims (wf : ScatterDims.WF ⟨1, ![N]⟩ ⟨2, ![M, 1]⟩ ⟨1, ![M]⟩ [] [0] [0] 1) :
    ScatterDims ⟨1, ![N]⟩ ⟨2, ![M, 1]⟩ ⟨1, ![M]⟩ :=
  ScatterDims.mk [] [0] [0] 1 wf

/-- Update j reads its index at row j of the M×1 index array. -/
theorem siIdx_eq (wf : ScatterDims.WF ⟨1, ![N]⟩ ⟨2, ![M, 1]⟩ ⟨1, ![M]⟩ [] [0] [0] 1)
    (j : (⟨1, ![M]⟩ : Shape).Idx) (c : Fin (dims wf).scatterDimsToOperandDims.length) :
    (dims wf).siIdx j c = ix2 (j 0) 0 := by
  funext b
  apply Fin.ext
  match b with
  | ⟨0, _⟩ => rfl
  | ⟨1, _⟩ =>
    have : c.val < 1 := c.isLt
    have : c.val = 0 := by omega
    show c.val = 0
    exact this

/-- The start of update j on the operand's axis is the signed reading of its index word. -/
theorem start_eq (wf : ScatterDims.WF ⟨1, ![N]⟩ ⟨2, ![M, 1]⟩ ⟨1, ![M]⟩ [] [0] [0] 1)
    (j : (⟨1, ![M]⟩ : Shape).Idx) (idx : IVec ⟨2, ![M, 1]⟩ w) (a : Fin 1) :
    (dims wf).start j idx a = (idx (ix2 (j 0) 0)).toInt := by
  unfold ScatterDims.start
  have ha : a ∈ ([0] : List (Fin 1)) := by rw [Fin.fin_one_eq_zero a]; exact List.mem_singleton_self _
  rw [dif_pos ha]
  exact congrArg (fun k => (idx k).toInt) (siIdx_eq wf j _)

/-- An update has no extent along the operand's axis. -/
theorem window_eq (wf : ScatterDims.WF ⟨1, ![N]⟩ ⟨2, ![M, 1]⟩ ⟨1, ![M]⟩ [] [0] [0] 1)
    (j : (⟨1, ![M]⟩ : Shape).Idx) (a : Fin 1) : (dims wf).window j a = 0 := by
  unfold ScatterDims.window
  rw [dif_neg]
  show a ∉ (List.finRange 1).filter (· ∉ ([0] : List (Fin 1)))
  rw [Fin.fin_one_eq_zero a]
  decide

/-- Update j lands on element i exactly when its index word, read signed, is i. -/
theorem resultIdx_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (dims wf).resultIdx? j idx = some i ↔ (idx (ix2 (j 0) 0)).toInt = ((i 0).val : Int) := by
  unfold ScatterDims.resultIdx?
  have hlt : (i 0).val < N := (i 0).isLt
  constructor
  · intro h
    split_ifs at h with hc
    have h0 : ((dims wf).start j idx 0 + ((dims wf).window j 0 : Nat)).toNat = (i 0).val :=
      congrArg (fun k => (k 0).val) (Option.some.inj h)
    have hc0 := hc 0
    rw [start_eq, window_eq] at hc0 h0
    omega
  · intro h
    have hc : ∀ a : Fin 1, 0 ≤ (dims wf).start j idx a + ((dims wf).window j a : Nat)
        ∧ (dims wf).start j idx a + ((dims wf).window j a : Nat) < ((⟨1, ![N]⟩ : Shape).size a : Nat) := fun a => by
      have := Fin.fin_one_eq_zero a; subst this
      rw [start_eq, window_eq, h]
      show (0 : Int) ≤ ((i 0).val : Int) + ((0 : Nat) : Int) ∧ ((i 0).val : Int) + ((0 : Nat) : Int) < (N : Int)
      omega
    rw [dif_pos hc]
    congr 1
    funext a
    apply Fin.ext
    have := Fin.fin_one_eq_zero a; subst this
    show ((dims wf).start j idx 0 + ((dims wf).window j 0 : Nat)).toNat = (i 0).val
    rw [start_eq, window_eq, h]
    omega

/-- The accumulating scatter at element i: the operand's element plus the updates whose index word reads i. -/
theorem scatterAdd_apply (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : (⟨1, ![N]⟩ : Shape).Idx) :
    Ideal.hostScatterAdd (dims wf) x idx upd i
      = x i + ∑ j : (⟨1, ![M]⟩ : Shape).Idx, if (idx (ix2 (j 0) 0)).toInt = ((i 0).val : Int) then upd j else 0 := by
  unfold Ideal.hostScatterAdd
  rw [Finset.sum_filter]
  congr 1
  refine Finset.sum_congr rfl fun j _ => ?_
  simp only [resultIdx_iff]

end Cert.Lib.ScatterCount

end
-- ==== Proof.LibRowGather.lean ====
/-
  Rows of a table picked by an array of integer words: what `table[idx]` lowers to on the host, read at an index.
  The table has N rows of D entries. Every start word is read as a signed integer and clamped into [0, N − 1]
  (StableHLO's gather clamps each start index so that the one-row slice fits); the result's row b is the table's
  row at that clamped position, entry for entry. Two spellings of the index array occur: B×1 words giving a B×D
  result, and B×1×1 words giving a B×1×D result. Nothing here mentions a program.
-/
import Idealize.ShloMosaic.PureOps.ShapeOps
import Idealize.ShloMosaic.Lib.ValueIdx

namespace Cert.Lib.RowGather

open Idealize.ShloMosaic Idealize.ShloMosaic.ValueIdx

section Rows
variable {α : Type}

/-- The row of an N-row table that a start word selects: the word read signed, clamped into [0, N − 1]. -/
def rowOf (N : Nat) (hN : 0 < N) {w : Nat} (v : BitVec w) : Fin N := ⟨min v.toInt.toNat (N - 1), by omega⟩

/-- The dimension numbers of a row gather with a B×1 index array: the result's axis 1 is the row's entries, the
    table's axis 0 is collapsed and addressed by the one component of each start index. -/
abbrev rowsDims (N B D : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

/-- Entry (b, q) of the gathered rows is entry q of the table's row selected by the word at (b, 0). -/
theorem gather_rows_apply {N B D w : Nat} (hN : 0 < N)
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ w) (b : Fin B) (q : Fin D) :
    Host.gather (rowsDims N B D wf) x idx (ix2 b q) = x (ix2 (rowOf N hN (idx (ix2 b 0))) q) := by
  unfold Host.gather
  refine congrArg x ?_
  funext a
  refine Fin.ext ?_
  match a with
  | ⟨0, _⟩ =>
    show (rowsDims N B D wf).start (ix2 b q) idx (0 : Fin 2) + (rowsDims N B D wf).batchCoord (ix2 b q) (0 : Fin 2)
        + (rowsDims N B D wf).offCoord (ix2 b q) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N B D wf).startIndexMap from List.mem_singleton.mpr rfl)]
    have hsi : (rowsDims N B D wf).siIdx (ix2 b q) ⟨List.idxOf (0 : Fin 2) (rowsDims N B D wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    have hs : (rowsDims N B D wf).start (ix2 b q) idx (1 : Fin 2) = 0 := by
      unfold GatherDims.start
      rw [dif_neg (show (1 : Fin 2) ∉ [(0 : Fin 2)] from by decide)]
    have ho : (rowsDims N B D wf).offCoord (ix2 b q) (1 : Fin 2) = q.val := by
      unfold GatherDims.offCoord
      rw [dif_pos ((GatherDims.mem_sKept _ _).mpr ⟨(show (1 : Fin 2) ∉ [(0 : Fin 2)] from by decide), List.not_mem_nil⟩)]
      rfl
    show (rowsDims N B D wf).start (ix2 b q) idx (1 : Fin 2) + (rowsDims N B D wf).batchCoord (ix2 b q) (1 : Fin 2)
        + (rowsDims N B D wf).offCoord (ix2 b q) (1 : Fin 2) = q.val
    rw [GatherDims.batchCoord_eq_zero _ _ _ List.not_mem_nil, hs, ho]; omega

/-- The dimension numbers of a row gather with a B×1×1 index array: the result is B×1×D, its last axis the row's
    entries. -/
abbrev rowsDims3 (N B D : Nat)
    (wf : GatherDims.WF ⟨2, ![N, D]⟩ ⟨3, ![B, 1, 1]⟩ ⟨3, ![B, 1, D]⟩ [2] [0] [] [0] [] 2 ![1, D]) :
    GatherDims ⟨2, ![N, D]⟩ ⟨3, ![B, 1, 1]⟩ ⟨3, ![B, 1, D]⟩ where
  offsetDims := [2]
  collapsedSliceDims := [0]
  operandBatchingDims := []
  startIndicesBatchingDims := []
  startIndexMap := [0]
  indexVectorDim := 2
  sliceSizes := ![1, D]
  wf := wf

/-- Entry (b, 0, q) of the gathered rows is entry q of the table's row selected by the word at (b, 0, 0). -/
theorem gather_rows3_apply {N B D w : Nat} (hN : 0 < N)
    (wf : GatherDims.WF ⟨2, ![N, D]⟩ ⟨3, ![B, 1, 1]⟩ ⟨3, ![B, 1, D]⟩ [2] [0] [] [0] [] 2 ![1, D])
    (x : (⟨2, ![N, D]⟩ : Shape).Idx → α) (idx : IVec ⟨3, ![B, 1, 1]⟩ w) (b : Fin B) (q : Fin D) :
    Host.gather (rowsDims3 N B D wf) x idx (ix3 b 0 q) = x (ix2 (rowOf N hN (idx (ix3 b 0 0))) q) := by
  unfold Host.gather
  refine congrArg x ?_
  funext a
  refine Fin.ext ?_
  match a with
  | ⟨0, _⟩ =>
    show (rowsDims3 N B D wf).start (ix3 b 0 q) idx (0 : Fin 2) + (rowsDims3 N B D wf).batchCoord (ix3 b 0 q) (0 : Fin 2)
        + (rowsDims3 N B D wf).offCoord (ix3 b 0 q) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N B D wf).startIndexMap from List.mem_singleton.mpr rfl)]
    have hsi : (rowsDims3 N B D wf).siIdx (ix3 b 0 q) ⟨List.idxOf (0 : Fin 2) (rowsDims3 N B D wf).startIndexMap,
        List.idxOf_lt_length_iff.2 (List.mem_singleton.mpr rfl)⟩ = ix3 b 0 0 := by
      funext c; refine Fin.ext ?_
      match c with
      | ⟨0, _⟩ => rfl
      | ⟨1, _⟩ => rfl
      | ⟨2, _⟩ => rfl
    rw [hsi]
    rfl
  | ⟨1, _⟩ =>
    have hs : (rowsDims3 N B D wf).start (ix3 b 0 q) idx (1 : Fin 2) = 0 := by
      unfold GatherDims.start
      rw [dif_neg (show (1 : Fin 2) ∉ [(0 : Fin 2)] from by decide)]
    have ho : (rowsDims3 N B D wf).offCoord (ix3 b 0 q) (1 : Fin 2) = q.val := by
      unfold GatherDims.offCoord
      rw [dif_pos ((GatherDims.mem_sKept _ _).mpr ⟨(show (1 : Fin 2) ∉ [(0 : Fin 2)] from by decide), List.not_mem_nil⟩)]
      rfl
    show (rowsDims3 N B D wf).start (ix3 b 0 q) idx (1 : Fin 2) + (rowsDims3 N B D wf).batchCoord (ix3 b 0 q) (1 : Fin 2)
        + (rowsDims3 N B D wf).offCoord (ix3 b 0 q) (1 : Fin 2) = q.val
    rw [GatherDims.batchCoord_eq_zero _ _ _ List.not_mem_nil, hs, ho]; omega

end Rows

end Cert.Lib.RowGather
-- ==== Proof.LibVecGather.lean ====
/-
  Entries of a one-axis table picked by an array of integer words: what `table[idx]` of a flat table lowers to on
  the host when the words sit in a B×1 array, read at an index. The table has N entries. Every start word is read
  as a signed integer and clamped into [0, N − 1] (the gather clamps each start index so that the one-entry slice
  fits); entry b of the result is the table's entry at that clamped position. Nothing here mentions a program.
-/
import Idealize.ShloMosaic.PureOps.ShapeOps
import Idealize.ShloMosaic.Lib.ValueIdx
import proofs.«149166_j53523882443689_2_alg».proof.Proof.LibRowGather

namespace Cert.Lib.VecGather

open Idealize.ShloMosaic Idealize.ShloMosaic.ValueIdx

variable {α : Type} {N B w : Nat}

/-- The dimension numbers of an entry gather with a B×1 index array: no offset axes in the result, the table's
    one axis collapsed and addressed by the one component of each start index, the index vector along axis 1. -/
abbrev vecDims (N B : Nat) (wf : GatherDims.WF ⟨1, ![N]⟩ ⟨2, ![B, 1]⟩ ⟨1, ![B]⟩ [] [0] [] [0] [] 1 ![1]) :
    GatherDims ⟨1, ![N]⟩ ⟨2, ![B, 1]⟩ ⟨1, ![B]⟩ where
  offsetDims := []
  collapsedSliceDims := [0]
  operandBatchingDims := []
  startIndicesBatchingDims := []
  startIndexMap := [0]
  indexVectorDim := 1
  sliceSizes := ![1]
  wf := wf

/-- Entry b of the gathered vector is the table's entry selected by the word at (b, 0), read signed and clamped
    into [0, N − 1]. -/
theorem gather_vec_apply (hN : 0 < N) (wf : GatherDims.WF ⟨1, ![N]⟩ ⟨2, ![B, 1]⟩ ⟨1, ![B]⟩ [] [0] [] [0] [] 1 ![1])
    (x : (⟨1, ![N]⟩ : Shape).Idx → α) (idx : IVec ⟨2, ![B, 1]⟩ w) (b : Fin B) :
    Host.gather (vecDims N B wf) x idx (ix1 b) = x (ix1 (Cert.Lib.RowGather.rowOf N hN (idx (ix2 b 0)))) := by
  unfold Host.gather
  refine congrArg x ?_
  funext a
  obtain rfl : a = 0 := Subsingleton.elim _ _
  refine Fin.ext ?_
  show (vecDims N B wf).start (ix1 b) idx (0 : Fin 1) + (vecDims N B wf).batchCoord (ix1 b) (0 : Fin 1)
      + (vecDims N B wf).offCoord (ix1 b) (0 : Fin 1) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N B wf).startIndexMap from List.mem_singleton.mpr rfl)]
  have hsi : (vecDims N B wf).siIdx (ix1 b) ⟨List.idxOf (0 : Fin 1) (vecDims N B wf).startIndexMap,
      List.idxOf_lt_length_iff.2 (List.mem_singleton.mpr rfl)⟩ = ix2 b 0 := by
    funext c; refine Fin.ext ?_
    match c with
    | ⟨0, _⟩ => rfl
    | ⟨1, _⟩ => rfl
  rw [hsi]
  rfl

end Cert.Lib.VecGather
-- ==== Proof.LibGraphConvAlgebra.lean ====
/-
  The mathematics of a three-layer graph convolution, over the reals.

  A graph is given by an edge set R, for every edge r its source node σ r and its weight c r, a relation
  L p r ("edge r is aimed at node p"), and a self-loop weight d p per node. One convolution of node features
  H (nodes × channels) with a weight matrix W and a bias b can be computed in two orders:

    * aggregate first:  ((Σ_{r aimed at p} H(σ r, ·)·c r) + H(p, ·)·d p) · W + b
    * multiply first:    Σ_{r aimed at p} (H·W)(σ r, ·)·c r + (H·W)(p, ·)·d p + b

  Both are the same real number entry by entry: the matrix product distributes over the finite sum over the
  edges and commutes with the per-row scale (conv_eq). A batch normalisation with running statistics can be
  applied as (x − μ)·ρ·γ + β or folded to x·(γ·ρ) + (β − μ·(γ·ρ)): the same real number (bn_eq). Three layers
  of either kind then give the same network (net_eq).

  The second half carries these facts to the extended reals: an array all of whose entries are reals is
  `up f` for a real array f, and sums, products, differences, maxima and conditionals of such entries are
  again the images of the real ones.
-/
import Idealize.ShloMosaic.PureOps.Ideal
import Idealize.ShloMosaic.PureOps.Ideal.Laws

open scoped BigOperators

noncomputable section

namespace Cert.Gcn

/-! ## Over the reals -/

section Reals

variable {P R K : Type} [Fintype R] [Fintype K]
variable (L : P → R → Prop) [∀ p r, Decidable (L p r)] (σ : R → P) (c : R → ℝ) (d : P → ℝ)

/-- The messages aimed at node p, summed: Σ over the edges r aimed at p of H(σ r, k)·c r. -/
def agg (H : P → K → ℝ) (p : P) (k : K) : ℝ := ∑ r, if L p r then H (σ r) k * c r else 0

/-- The matrix product H·W. -/
def prod (H : P → K → ℝ) (W : K → K → ℝ) (p : P) (q : K) : ℝ := ∑ k, H p k * W k q

/-- One convolution, aggregating first. -/
def convK (H : P → K → ℝ) (W : K → K → ℝ) (b : K → ℝ) (p : P) (q : K) : ℝ :=
  (∑ k, (agg L σ c H p k + H p k * d p) * W k q) + b q

/-- One convolution, multiplying by W first. -/
def convR (H : P → K → ℝ) (W : K → K → ℝ) (b : K → ℝ) (p : P) (q : K) : ℝ :=
  (agg L σ c (prod H W) p q + prod H W p q * d p) + b q

/-- The two orders agree: Σ_k (Σ_r a_{rk} + h_k·d)·W_{kq} = Σ_r (Σ_k a_{rk}·W_{kq}) + (Σ_k h_k·W_{kq})·d. -/
theorem conv_eq (H : P → K → ℝ) (W : K → K → ℝ) (b : K → ℝ) : convK L σ c d H W b = convR L σ c d H W b := by
  funext p q
  unfold convK convR agg prod
  congr 1
  simp only [add_mul, Finset.sum_add_distrib, Finset.sum_mul]
  congr 1
  · rw [Finset.sum_comm]
    refine Finset.sum_congr rfl fun r _ => ?_
    by_cases h : L p r
    · simp only [if_pos h]
      exact Finset.sum_congr rfl fun k _ => by ring
    · simp only [if_neg h, zero_mul, Finset.sum_const_zero]
  · refine Finset.sum_congr rfl fun k _ => ?_
    ring

/-- Batch normalisation folded to one scale and one shift, then clamped below at 0. -/
def bnK (x g be mu rs : ℝ) : ℝ := max (x * (g * rs) + (be - mu * (g * rs))) 0

/-- Batch normalisation as centring, scaling by the inverse deviation, by γ, adding β, then clamped at 0. -/
def bnR (x g be mu rs : ℝ) : ℝ := max ((x - mu) * rs * g + be) 0

theorem bn_eq (x g be mu rs : ℝ) : bnK x g be mu rs = bnR x g be mu rs := by
  unfold bnK bnR
  congr 1
  ring

/-- Three layers, each aggregating first, the normalisation folded; the input added to the last. -/
def netK (x : P → K → ℝ) (W1 : K → K → ℝ) (b1 g1 be1 m1 rs1 : K → ℝ) (W2 : K → K → ℝ) (b2 g2 be2 m2 rs2 : K → ℝ)
    (W3 : K → K → ℝ) (b3 : K → ℝ) : P → K → ℝ :=
  fun p q => convK L σ c d
    (fun p q => bnK (convK L σ c d
      (fun p q => bnK (convK L σ c d x W1 b1 p q) (g1 q) (be1 q) (m1 q) (rs1 q)) W2 b2 p q) (g2 q) (be2 q) (m2 q) (rs2 q))
    W3 b3 p q + x p q

/-- Three layers, each multiplying first, the normalisation unfolded; the input added to the last. -/
def netR (x : P → K → ℝ) (W1 : K → K → ℝ) (b1 g1 be1 m1 rs1 : K → ℝ) (W2 : K → K → ℝ) (b2 g2 be2 m2 rs2 : K → ℝ)
    (W3 : K → K → ℝ) (b3 : K → ℝ) : P → K → ℝ :=
  fun p q => convR L σ c d
    (fun p q => bnR (convR L σ c d
      (fun p q => bnR (convR L σ c d x W1 b1 p q) (g1 q) (be1 q) (m1 q) (rs1 q)) W2 b2 p q) (g2 q) (be2 q) (m2 q) (rs2 q))
    W3 b3 p q + x p q

theorem net_eq (x : P → K → ℝ) (W1 : K → K → ℝ) (b1 g1 be1 m1 rs1 : K → ℝ) (W2 : K → K → ℝ) (b2 g2 be2 m2 rs2 : K → ℝ)
    (W3 : K → K → ℝ) (b3 : K → ℝ) :
    netK L σ c d x W1 b1 g1 be1 m1 rs1 W2 b2 g2 be2 m2 rs2 W3 b3
      = netR L σ c d x W1 b1 g1 be1 m1 rs1 W2 b2 g2 be2 m2 rs2 W3 b3 := by
  unfold netK netR
  simp only [conv_eq, bn_eq]

end Reals

/-! ## Real arrays among the extended reals -/

/-- A real array read as an array of extended reals. -/
def up {ι : Type} (f : ι → ℝ) : ι → EReal := fun i => ((f i : ℝ) : EReal)

theorem up_apply {ι : Type} (f : ι → ℝ) (i : ι) : up f i = ((f i : ℝ) : EReal) := rfl

/-- An array all of whose entries are reals is the image of a real array. -/
theorem exists_up {ι : Type} (x : ι → EReal) (h : ∀ i, ∃ r : ℝ, x i = (r : EReal)) : ∃ f : ι → ℝ, x = up f := by
  choose f hf using h
  exact ⟨f, funext hf⟩

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A conditional term of a sum: the reading of "f if the condition holds, else 0". -/
theorem coe_ite_zero (p : Prop) [Decidable p] (a : ℝ) : (((if p then a else 0 : ℝ)) : EReal) = if p then (a : EReal) else 0 := by
  split_ifs <;> simp

end Cert.Gcn

end
-- ==== Proof.LibGraphMessages.lean ====
/-
  The two irregular operations of a graph convolution, read at an entry on the extended reals.

  The edges are numbered 0 … M − 1; an M×1 array of integer words names, for each edge, a node. Picking rows of an
  N×D table by such words (a gather) gives, for edge r, the table's row at the word read signed and clamped into
  [0, N − 1]: that node is `srcOf`. Adding update rows into an N×D array of zeros (an accumulating scatter) sends
  update row r to the node whose number IS the word read signed, and drops it when there is no such node: edge r
  is `Aimed` at node p when its word reads p.

  messages_apply: gathering rows of X by the source words, scaling row r by a per-edge weight, and scattering by
  the target words gives at (p, q) the sum over the edges r aimed at p of X(srcOf r, q)·weight r.
  count_real: scattering the constant 1 per edge into zeros counts the edges aimed at each node: a real ≥ 0.
-/
import Idealize.ShloMosaic.PureOps.Ideal
import Idealize.ShloMosaic.PureOps.Ideal.Laws
import Idealize.ShloMosaic.Lib.ValueIdx
import proofs.«149166_j53523882443689_2_alg».proof.Proof.LibScatterRows
import proofs.«149166_j53523882443689_2_alg».proof.Proof.LibScatterCount
import proofs.«149166_j53523882443689_2_alg».proof.Proof.LibRowGather
import proofs.«149166_j53523882443689_2_alg».proof.Proof.LibVecGather
import proofs.«149166_j53523882443689_2_alg».proof.Proof.LibRowReductions
import proofs.«149166_j53523882443689_2_alg».proof.Proof.LibGraphConvAlgebra

open scoped BigOperators

noncomputable section

namespace Cert.Gcn

open Idealize.ShloMosaic Idealize.ShloMosaic.ValueIdx

variable {N M D : Nat}

/-- Edge r is aimed at node p: its target word, read signed, is p. -/
def Aimed (idst : IVec ⟨2, ![M, 1]⟩ 32) (p : Fin N) (r : Fin M) : Prop := (idst (ix2 r 0)).toInt = ((p.val : Nat) : Int)

instance (idst : IVec ⟨2, ![M, 1]⟩ 32) (p : Fin N) (r : Fin M) : Decidable (Aimed idst p r) := by
  unfold Aimed; infer_instance

/-- The node whose row a gather takes for edge r: the word read signed, clamped into [0, N − 1]. -/
def srcOf (hN : 0 < N) (isrc : IVec ⟨2, ![M, 1]⟩ 32) (r : Fin M) : Fin N := Cert.Lib.RowGather.rowOf N hN (isrc (ix2 r 0))

/-- Gather rows of X by the source words, scale row r by weight r, scatter-add by the target words into zeros:
    at (p, q) the sum over the edges r aimed at p of X(srcOf r, q) · weight r. -/
theorem messages_apply (hN : 0 < N)
    (wfS : ScatterDims.WF ⟨2, ![N, D]⟩ ⟨2, ![M, 1]⟩ ⟨2, ![M, D]⟩ [1] [0] [0] 1)
    (wfG : GatherDims.WF ⟨2, ![N, D]⟩ ⟨2, ![M, 1]⟩ ⟨2, ![M, D]⟩ [1] [0] [] [0] [] 1 ![1, D])
    (hb1 : (⟨1, ![M]⟩ : Shape).BroadcastsInDim ⟨2, ![M, 1]⟩ ![0])
    (hb2 : (⟨2, ![M, 1]⟩ : Shape).BroadcastsInDim ⟨2, ![M, D]⟩ ![0, 1])
    (Z : (⟨2, ![N, D]⟩ : Shape).Idx → EReal) (hZ : ∀ i, Z i = 0)
    (X : (⟨2, ![N, D]⟩ : Shape).Idx → EReal) (weight : (⟨1, ![M]⟩ : Shape).Idx → EReal)
    (isrc idst : IVec ⟨2, ![M, 1]⟩ 32) (p : Fin N) (q : Fin D) :
    Ideal.hostScatterAdd (Cert.Lib.ScatterRows.dims wfS) Z idst
        (mulf (F := Ideal) (φ := .f32) (Host.gather (Cert.Lib.RowGather.rowsDims N M D wfG) X isrc)
          (broadcastInDim ⟨2, ![M, D]⟩ ![0, 1] hb2 (broadcastInDim ⟨2, ![M, 1]⟩ ![0] hb1 weight))) (ix2 p q)
      = 0 + ∑ r : Fin M, if Aimed idst p r then X (ix2 (srcOf hN isrc r) q) * weight (ix1 r) else 0 := by
  rw [Cert.Lib.ScatterRows.scatterAdd_apply, hZ, sum_idx2]
  congr 1
  refine Finset.sum_congr rfl fun r _ => ?_
  have hterm : ∀ k : Fin D,
      (if (idst (ix2 (⟨((ix2 r k : (⟨2, ![M, D]⟩ : Shape).Idx) 0).val, idx2_lt0 (ix2 r k)⟩ : Fin M) (0 : Fin 1))).toInt
            = ((((ix2 p q : (⟨2, ![N, D]⟩ : Shape).Idx) 0).val : Nat) : Int)
          ∧ ((ix2 r k : (⟨2, ![M, D]⟩ : Shape).Idx) 1).val = ((ix2 p q : (⟨2, ![N, D]⟩ : Shape).Idx) 1).val
        then mulf (F := Ideal) (φ := .f32) (Host.gather (Cert.Lib.RowGather.rowsDims N M D wfG) X isrc)
          (broadcastInDim ⟨2, ![M, D]⟩ ![0, 1] hb2 (broadcastInDim ⟨2, ![M, 1]⟩ ![0] hb1 weight)) (ix2 r k) else 0)
      = if k = q then (if Aimed idst p r then X (ix2 (srcOf hN isrc r) q) * weight (ix1 r) else 0) else 0 := by
    intro k
    have hr : (⟨((ix2 r k : (⟨2, ![M, D]⟩ : Shape).Idx) 0).val, idx2_lt0 (ix2 r k)⟩ : Fin M) = r := Fin.ext rfl
    rw [hr]
    by_cases hk : k = q
    · subst hk
      by_cases ha : Aimed idst p r
      · rw [if_pos rfl, if_pos ha, if_pos ⟨ha, rfl⟩, mulf_apply, Cert.Lib.RowGather.gather_rows_apply hN,
          Cert.Lib.RowReductions.bcastInDim_cols_apply, Cert.Lib.RowReductions.bcastInDim_col_apply]
        rfl
      · rw [if_pos rfl, if_neg ha, if_neg (fun h => ha h.1)]
    · rw [if_neg hk, if_neg (fun h => hk (Fin.ext h.2))]
  rw [Finset.sum_congr rfl fun k _ => hterm k, Finset.sum_ite_eq' Finset.univ q, if_pos (Finset.mem_univ q)]

/-- Scatter-adding an array of ones (one per edge) into zeros counts, at node p, the edges aimed at p: a real that
    is not negative. -/
theorem count_real
    (wf : ScatterDims.WF ⟨1, ![N]⟩ ⟨2, ![M, 1]⟩ ⟨1, ![M]⟩ [] [0] [0] 1)
    (Z : (⟨1, ![N]⟩ : Shape).Idx → EReal) (hZ : ∀ i, Z i = 0)
    (ones : (⟨1, ![M]⟩ : Shape).Idx → EReal) (h1 : ∀ j, ones j = 1)
    (idst : IVec ⟨2, ![M, 1]⟩ 32) (i : (⟨1, ![N]⟩ : Shape).Idx) :
    ∃ s : ℝ, 0 ≤ s ∧ Ideal.hostScatterAdd (Cert.Lib.ScatterCount.dims wf) Z idst ones i = ((s : ℝ) : EReal) := by
  refine ⟨∑ j : (⟨1, ![M]⟩ : Shape).Idx, if (idst (ix2 (j 0) 0)).toInt = (((i 0).val : Nat) : Int) then (1 : ℝ) else 0,
    Finset.sum_nonneg fun j _ => by split_ifs <;> norm_num, ?_⟩
  rw [Cert.Lib.ScatterCount.scatterAdd_apply, hZ, zero_add, coe_sum]
  refine Finset.sum_congr rfl fun j _ => ?_
  rw [h1, coe_ite_zero, EReal.coe_one]

end Cert.Gcn

end
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«149166_j53523882443689_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«149166_j53523882443689_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.GcnHost.lean ====
/-
  The two programs' host-side pieces, as whole-array functions on the extended reals, and the two networks built
  from them.

  Shared by both programs (the same operations in the same order): the degree of a node is the number of edges
  aimed at it plus one, `dinv` its inverse square root; the weight of edge r is dinv(source r)·dinv(target r)
  (`coef`, both read through the negative-index wrap and the gather's clamp); `msgs X` gathers the rows of X at the
  edges' sources, scales row r by the weight of r and adds it into row (target r) of an array of zeros.

  The kernel program aggregates the layer's INPUT and hands msgs H, H, the self-loop column dinv², W and the bias,
  scale and shift rows to a fused layer (`kLayerBN`, `kLayerRes`, `kNet`). The reference multiplies by W first,
  aggregates H·W, adds the self-loop term and the bias (`rConv`), and normalises as ((x − μ)·ρ)·γ + β clamped at 0
  (`rBN`, `rNet`).
-/
import Idealize.ShloMosaic.PureOps.Ideal
import Idealize.ShloMosaic.PureOps.Ideal.Laws
import Idealize.ShloMosaic.Lib.ValueIdx
import Idealize.ShloMosaic.Lib.Pipeline.Value
import proofs.«149166_j53523882443689_2_alg».proof.Proof.LibGraphMessages
import proofs.«149166_j53523882443689_2_alg».proof.Proof.LibFusedConvLayer
import proofs.«149166_j53523882443689_2_alg».proof.Proof.LibMatProd
import proofs.«149166_j53523882443689_2_alg».proof.Proof.LibRowVector

open scoped BigOperators

noncomputable section

namespace Cert.Gcn

open Idealize.ShloMosaic Idealize.ShloMosaic.ValueIdx

abbrev S0 : Shape := ⟨0, ![]⟩
abbrev VE : Shape := ⟨1, ![800000]⟩
abbrev VN : Shape := ⟨1, ![50000]⟩
abbrev VD : Shape := ⟨1, ![128]⟩
abbrev CE : Shape := ⟨2, ![800000, 1]⟩
abbrev CN : Shape := ⟨2, ![50000, 1]⟩
abbrev ME : Shape := ⟨2, ![800000, 128]⟩
abbrev MN : Shape := ⟨2, ![50000, 128]⟩
abbrev MW : Shape := ⟨2, ![128, 128]⟩
abbrev RD : Shape := ⟨2, ![1, 128]⟩

/-- The side conditions of the shapes' re-layings and of the gathers', scatters' and product's dimension numbers. -/
structure Sides : Prop where
  bS_E : S0.BroadcastsInDim VE ![]
  bS_N : S0.BroadcastsInDim VN ![]
  bS_D : S0.BroadcastsInDim VD ![]
  bS_MN : S0.BroadcastsInDim MN ![]
  bE_CE : VE.BroadcastsInDim CE ![0]
  bCE_ME : CE.BroadcastsInDim ME ![0, 1]
  bN_CN : VN.BroadcastsInDim CN ![0]
  bCN_MN : CN.BroadcastsInDim MN ![0, 1]
  bD_RD : VD.BroadcastsInDim RD ![1]
  bRD_MN : RD.BroadcastsInDim MN ![0, 1]
  scN : VN.ShapeCasts CN
  scD : VD.ShapeCasts RD
  wfC : ScatterDims.WF VN CE VE [] [0] [0] 1
  wfS : ScatterDims.WF MN CE ME [1] [0] [0] 1
  wfGv : GatherDims.WF VN CE VE [] [0] [] [0] [] 1 ![1]
  wfG : GatherDims.WF MN CE ME [1] [0] [] [0] [] 1 ![1, 128]
  wfDot : DotDims.WF MN MW MN [1] [0] [0] [1] [] []

/-- They all hold: each is decided on the literal shapes. -/
theorem sides : Sides :=
  ⟨by decide, by decide, by decide, by decide, by decide, by decide, by decide, by decide, by decide, by decide,
   by decide, by decide, by decide, by decide, by decide, by decide, by decide⟩

variable (h : Sides)

/-! ## The graph's structure -/

/-- The words of an index vector as an E×1 column, a negative word first raised by the number of nodes. -/
def wrapCol (w : IVec VE 32) : IVec CE 32 :=
  broadcastInDim CE ![0] h.bE_CE
    (select (cmpi .slt w (broadcastInDim VE ![] h.bS_E (constantI S0 32 0#32)))
      (addi w (broadcastInDim VE ![] h.bS_E (constantI S0 32 50000#32))) w)

/-- The words of an index vector as an E×1 column, as they are. -/
def rawCol (w : IVec VE 32) : IVec CE 32 := broadcastInDim CE ![0] h.bE_CE w

/-- 1/√(number of edges aimed at the node, plus one). -/
def dinv (dst : IVec VE 32) : VN.Idx → EReal :=
  Host.rsqrt (F := Ideal) (φ := .f32)
    (addf (Host.scatterAdd (Cert.Lib.ScatterCount.dims h.wfC)
        (broadcastInDim VN ![] h.bS_N (constant (F := Ideal) S0 .f32 0x00000000#32)) (rawCol h dst)
        (broadcastInDim VE ![] h.bS_E (constant (F := Ideal) S0 .f32 0x3F800000#32)))
      (broadcastInDim VN ![] h.bS_N (constant (F := Ideal) S0 .f32 0x3F800000#32)))

/-- The weight of each edge: dinv at its source times dinv at its target. -/
def coef (src dst : IVec VE 32) : VE.Idx → EReal :=
  mulf (F := Ideal) (φ := .f32) (Host.gather (Cert.Lib.VecGather.vecDims 50000 800000 h.wfGv) (dinv h dst) (wrapCol h src))
    (Host.gather (Cert.Lib.VecGather.vecDims 50000 800000 h.wfGv) (dinv h dst) (wrapCol h dst))

/-- The weighted rows of X at the edges' sources, added into zeros at the edges' targets. -/
def msgs (src dst : IVec VE 32) (X : MN.Idx → EReal) : MN.Idx → EReal :=
  Host.scatterAdd (F := Ideal) (φ := .f32) (Cert.Lib.ScatterRows.dims h.wfS)
    (broadcastInDim MN ![] h.bS_MN (constant (F := Ideal) S0 .f32 0x00000000#32)) (rawCol h dst)
    (mulf (F := Ideal) (φ := .f32) (Host.gather (Cert.Lib.RowGather.rowsDims 50000 800000 128 h.wfG) X (wrapCol h src))
      (broadcastInDim ME ![0, 1] h.bCE_ME (broadcastInDim CE ![0] h.bE_CE (coef h src dst))))

/-- The inverse deviation of a channel: 1/√(variance + ε), ε the word 0x3727C5AC. -/
def rsV (v : VD.Idx → EReal) : VD.Idx → EReal :=
  Host.rsqrt (F := Ideal) (φ := .f32) (addf v (broadcastInDim VD ![] h.bS_D (constant (F := Ideal) S0 .f32 0x3727C5AC#32)))

/-! ## The kernel program's network -/

/-- The self-loop weights dinv² as an N×1 column. -/
def d2col (dst : IVec VE 32) : CN.Idx → EReal :=
  shapeCast CN (mulf (F := Ideal) (φ := .f32) (dinv h dst) (dinv h dst)) h.scN

/-- A channel vector as a 1×D row. -/
def rowOfVec (v : VD.Idx → EReal) : RD.Idx → EReal := shapeCast RD v h.scD

/-- The folded scale γ·ρ. -/
def scaleV (g v : VD.Idx → EReal) : VD.Idx → EReal := mulf (F := Ideal) (φ := .f32) g (rsV h v)

/-- The folded shift β − μ·(γ·ρ). -/
def shiftV (g be mu v : VD.Idx → EReal) : VD.Idx → EReal :=
  subf (F := Ideal) (φ := .f32) be (mulf (F := Ideal) (φ := .f32) mu (scaleV h g v))

def kLayerBN (src dst : IVec VE 32) (H : MN.Idx → EReal) (W : MW.Idx → EReal) (b g be mu v : VD.Idx → EReal) : MN.Idx → EReal :=
  bnLayer (msgs h src dst H) H (d2col h dst) W (rowOfVec h b) (rowOfVec h (scaleV h g v)) (rowOfVec h (shiftV h g be mu v))

def kLayerRes (src dst : IVec VE 32) (H : MN.Idx → EReal) (W : MW.Idx → EReal) (b : VD.Idx → EReal) (X : MN.Idx → EReal) :
    MN.Idx → EReal :=
  resLayer (msgs h src dst H) H (d2col h dst) W (rowOfVec h b) X

def kNet (x : MN.Idx → EReal) (W1 : MW.Idx → EReal) (b1 g1 be1 m1 v1 : VD.Idx → EReal) (W2 : MW.Idx → EReal)
    (b2 g2 be2 m2 v2 : VD.Idx → EReal) (W3 : MW.Idx → EReal) (b3 : VD.Idx → EReal) (src dst : IVec VE 32) : MN.Idx → EReal :=
  kLayerRes h src dst (kLayerBN h src dst (kLayerBN h src dst x W1 b1 g1 be1 m1 v1) W2 b2 g2 be2 m2 v2) W3 b3 x

/-! ## The reference's network -/

/-- The plain product's dimension numbers. -/
abbrev dotD : DotDims MN MW MN := ⟨[1], [0], [0], [1], [], [], h.wfDot⟩

/-- A channel vector broadcast down the N rows. -/
def bcRow (v : VD.Idx → EReal) : MN.Idx → EReal :=
  broadcastInDim MN ![0, 1] h.bRD_MN (broadcastInDim RD ![1] h.bD_RD v)

def rConv (src dst : IVec VE 32) (H : MN.Idx → EReal) (W : MW.Idx → EReal) (b : VD.Idx → EReal) : MN.Idx → EReal :=
  addf (F := Ideal) (φ := .f32)
    (addf (F := Ideal) (φ := .f32) (msgs h src dst (Host.dotGeneral (F := Ideal) (φ₁ := .f32) (φ₂ := .f32) (dotD h) none H W))
      (mulf (F := Ideal) (φ := .f32) (Host.dotGeneral (F := Ideal) (φ₁ := .f32) (φ₂ := .f32) (dotD h) none H W)
        (broadcastInDim MN ![0, 1] h.bCN_MN (broadcastInDim CN ![0] h.bN_CN
          (mulf (F := Ideal) (φ := .f32) (dinv h dst) (dinv h dst))))))
    (bcRow h b)

def rBN (X : MN.Idx → EReal) (g be mu v : VD.Idx → EReal) : MN.Idx → EReal :=
  maximumf (F := Ideal) (φ := .f32)
    (addf (F := Ideal) (φ := .f32)
      (mulf (F := Ideal) (φ := .f32)
        (mulf (F := Ideal) (φ := .f32) (subf (F := Ideal) (φ := .f32) X (bcRow h mu)) (bcRow h (rsV h v)))
        (bcRow h g))
      (bcRow h be))
    (broadcastInDim MN ![] h.bS_MN (constant (F := Ideal) S0 .f32 0x00000000#32))

def rNet (x : MN.Idx → EReal) (W1 : MW.Idx → EReal) (b1 g1 be1 m1 v1 : VD.Idx → EReal) (W2 : MW.Idx → EReal)
    (b2 g2 be2 m2 v2 : VD.Idx → EReal) (W3 : MW.Idx → EReal) (b3 : VD.Idx → EReal) (src dst : IVec VE 32) : MN.Idx → EReal :=
  addf (F := Ideal) (φ := .f32)
    (rConv h src dst (rBN h (rConv h src dst (rBN h (rConv h src dst x W1 b1) g1 be1 m1 v1) W2 b2) g2 be2 m2 v2) W3 b3) x

end Cert.Gcn

end
-- ==== Proof.KernelValue.lean ====
/-
  The kernel program's result as one function of its arguments.

  The contents of the buffers at the six segment boundaries, followed from the launch memory: the first stretch of
  host operations computes the edge weights, the self-loop column, the messages of the input and the first layer's
  bias, scale and shift rows; region 0 leaves the first hidden layer; the second stretch gathers and scatters that
  layer and prepares the second layer's rows; region 1 leaves the second hidden layer; the third stretch aggregates
  it; region 2 leaves the last layer with the input added. No segment writes an argument or a value a later segment
  still reads, so each is carried along unchanged.
-/
import proofs.«149166_j53523882443689_2_alg».proof.Proof.Region0
import proofs.«149166_j53523882443689_2_alg».proof.Proof.Region1
import proofs.«149166_j53523882443689_2_alg».proof.Proof.Region2
import proofs.«149166_j53523882443689_2_alg».proof.Proof.KernelRun
import proofs.«149166_j53523882443689_2_alg».proof.Proof.GcnHost
import Idealize.ShloMosaic.Lib.StableHlo.Run

set_option maxRecDepth 16384
set_option maxHeartbeats 4000000

noncomputable section

namespace Cert.KernelIdeal.Net

open Cert.KernelIdeal Cert.KernelIdeal.Gen Cert.Gcn
open Idealize.ShloMosaic Idealize.ShloMosaic.TcCoe Idealize.ShloMosaic.ValueIdx Idealize.SL.Sem
open Idealize.ShloMosaic.StableHlo
open Idealize.ShloMosaic.Pipeline (Dat Cfg Window)

variable (m : (ℓ : Loc nD τ sig) → Buf (Elt Ideal) ℓ) (ρ : Dev nD → PrngReg)

/-! ## After the first stretch of host operations -/

theorem W1_v36 (c : Dev nD) : W1 m ρ c (Proc.devRef .tc main_v36) = msgs sides (m ((c : Thread nD τ).loc main_arg15)) (m ((c : Thread nD τ).loc main_arg16)) (m ((c : Thread nD τ).loc main_arg0)) := by
  show StableHlo.after hostOps0 (W0 m ρ c) (Proc.devRef .tc main_v36) = _
  after_results_simp <;> rfl

theorem W1_v8 (c : Dev nD) : W1 m ρ c (Proc.devRef .tc main_v8) = d2col sides (m ((c : Thread nD τ).loc main_arg16)) := by
  show StableHlo.after hostOps0 (W0 m ρ c) (Proc.devRef .tc main_v8) = _
  after_results_simp <;> rfl

theorem W1_v23 (c : Dev nD) : W1 m ρ c (Proc.devRef .tc main_v23) = coef sides (m ((c : Thread nD τ).loc main_arg15)) (m ((c : Thread nD τ).loc main_arg16)) := by
  show StableHlo.after hostOps0 (W0 m ρ c) (Proc.devRef .tc main_v23) = _
  after_results_simp <;> rfl

theorem W1_v43 (c : Dev nD) : W1 m ρ c (Proc.devRef .tc main_v43) = rowOfVec sides (m ((c : Thread nD τ).loc main_arg2)) := by
  show StableHlo.after hostOps0 (W0 m ρ c) (Proc.devRef .tc main_v43) = _
  after_results_simp <;> rfl

theorem W1_v44 (c : Dev nD) : W1 m ρ c (Proc.devRef .tc main_v44) = rowOfVec sides (scaleV sides (m ((c : Thread nD τ).loc main_arg3)) (m ((c : Thread nD τ).loc main_arg6))) := by
  show StableHlo.after hostOps0 (W0 m ρ c) (Proc.devRef .tc main_v44) = _
  after_results_simp <;> rfl

theorem W1_v45 (c : Dev nD) : W1 m ρ c (Proc.devRef .tc main_v45) = rowOfVec sides (shiftV sides (m ((c : Thread nD τ).loc main_arg3)) (m ((c : Thread nD τ).loc main_arg4)) (m ((c : Thread nD τ).loc main_arg5)) (m ((c : Thread nD τ).loc main_arg6))) := by
  show StableHlo.after hostOps0 (W0 m ρ c) (Proc.devRef .tc main_v45) = _
  after_results_simp <;> rfl

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl

theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl

theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl

theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl

theorem W1_arg10 (c : Dev nD) : W1 m ρ c (Proc.devRef .tc main_arg10) = m ((c : Thread nD τ).loc main_arg10) := by
  show StableHlo.after hostOps0 (W0 m ρ c) (Proc.devRef .tc main_arg10) = _
  after_results_simp <;> rfl

theorem W1_arg11 (c : Dev nD) : W1 m ρ c (Proc.devRef .tc main_arg11) = m ((c : Thread nD τ).loc main_arg11) := by
  show StableHlo.after hostOps0 (W0 m ρ c) (Proc.devRef .tc main_arg11) = _
  after_results_simp <;> rfl

theorem W1_arg12 (c : Dev nD) : W1 m ρ c (Proc.devRef .tc main_arg12) = m ((c : Thread nD τ).loc main_arg12) := by
  show StableHlo.after hostOps0 (W0 m ρ c) (Proc.devRef .tc main_arg12) = _
  after_results_simp <;> rfl

theorem W1_arg13 (c : Dev nD) : W1 m ρ c (Proc.devRef .tc main_arg13) = m ((c : Thread nD τ).loc main_arg13) := by
  show StableHlo.after hostOps0 (W0 m ρ c) (Proc.devRef .tc main_arg13) = _
  after_results_simp <;> rfl

theorem W1_arg14 (c : Dev nD) : W1 m ρ c (Proc.devRef .tc main_arg14) = m ((c : Thread nD τ).loc main_arg14) := by
  show StableHlo.after hostOps0 (W0 m ρ c) (Proc.devRef .tc main_arg14) = _
  after_results_simp <;> rfl

theorem W1_arg15 (c : Dev nD) : W1 m ρ c (Proc.devRef .tc main_arg15) = m ((c : Thread nD τ).loc main_arg15) := by
  show StableHlo.after hostOps0 (W0 m ρ c) (Proc.devRef .tc main_arg15) = _
  after_results_simp <;> rfl

theorem W1_arg16 (c : Dev nD) : W1 m ρ c (Proc.devRef .tc main_arg16) = m ((c : Thread nD τ).loc main_arg16) := by
  show StableHlo.after hostOps0 (W0 m ρ c) (Proc.devRef .tc main_arg16) = _
  after_results_simp <;> rfl

/-! ## After region 0 -/

theorem W2_v46 (c : Dev nD) : W2 m ρ c (Proc.devRef .tc main_v46) = kLayerBN sides (m ((c : Thread nD τ).loc main_arg15)) (m ((c : Thread nD τ).loc main_arg16)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [show W2 m ρ c (Proc.devRef .tc main_v46) = (dat0 (F := Ideal) (V1 m ρ) c).arrAt 7 cfg0.N from W2_arr m ρ c 7, final0]
  show bnLayer (W1 m ρ c (Proc.devRef .tc main_v36)) (W1 m ρ c (Proc.devRef .tc main_arg0)) (W1 m ρ c (Proc.devRef .tc main_v8)) (W1 m ρ c (Proc.devRef .tc main_arg1))
    (W1 m ρ c (Proc.devRef .tc main_v43)) (W1 m ρ c (Proc.devRef .tc main_v44)) (W1 m ρ c (Proc.devRef .tc main_v45)) = _
  rw [W1_v36, W1_arg0, W1_v8, W1_arg1, W1_v43, W1_v44, W1_v45]
  rfl

theorem W2_v8 (c : Dev nD) : W2 m ρ c (Proc.devRef .tc main_v8) = d2col sides (m ((c : Thread nD τ).loc main_arg16)) :=
  ((W2_arr m ρ c 2).trans (((dat0 (F := Ideal) (V1 m ρ) c).arrAt_in 2 rfl _).trans (A_eq0 (V1 m ρ) c 2))).trans (W1_v8 m ρ c)

theorem W2_arg0 (c : Dev nD) : W2 m ρ c (Proc.devRef .tc main_arg0) = m ((c : Thread nD τ).loc main_arg0) :=
  ((W2_arr m ρ c 1).trans (((dat0 (F := Ideal) (V1 m ρ) c).arrAt_in 1 rfl _).trans (A_eq0 (V1 m ρ) c 1))).trans (W1_arg0 m ρ c)

theorem W2_v23 (c : Dev nD) : W2 m ρ c (Proc.devRef .tc main_v23) = coef sides (m ((c : Thread nD τ).loc main_arg15)) (m ((c : Thread nD τ).loc main_arg16)) :=
  (W2_of_ne m ρ c main_v23 (by decide)).trans (W1_v23 m ρ c)

theorem W2_arg7 (c : Dev nD) : W2 m ρ c (Proc.devRef .tc main_arg7) = m ((c : Thread nD τ).loc main_arg7) :=
  (W2_of_ne m ρ c main_arg7 (by decide)).trans (W1_arg7 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W2_arg9 (c : Dev nD) : W2 m ρ c (Proc.devRef .tc main_arg9) = m ((c : Thread nD τ).loc main_arg9) :=
  (W2_of_ne m ρ c main_arg9 (by decide)).trans (W1_arg9 m ρ c)

theorem W2_arg10 (c : Dev nD) : W2 m ρ c (Proc.devRef .tc main_arg10) = m ((c : Thread nD τ).loc main_arg10) :=
  (W2_of_ne m ρ c main_arg10 (by decide)).trans (W1_arg10 m ρ c)

theorem W2_arg11 (c : Dev nD) : W2 m ρ c (Proc.devRef .tc main_arg11) = m ((c : Thread nD τ).loc main_arg11) :=
  (W2_of_ne m ρ c main_arg11 (by decide)).trans (W1_arg11 m ρ c)

theorem W2_arg12 (c : Dev nD) : W2 m ρ c (Proc.devRef .tc main_arg12) = m ((c : Thread nD τ).loc main_arg12) :=
  (W2_of_ne m ρ c main_arg12 (by decide)).trans (W1_arg12 m ρ c)

theorem W2_arg13 (c : Dev nD) : W2 m ρ c (Proc.devRef .tc main_arg13) = m ((c : Thread nD τ).loc main_arg13) :=
  (W2_of_ne m ρ c main_arg13 (by decide)).trans (W1_arg13 m ρ c)

theorem W2_arg14 (c : Dev nD) : W2 m ρ c (Proc.devRef .tc main_arg14) = m ((c : Thread nD τ).loc main_arg14) :=
  (W2_of_ne m ρ c main_arg14 (by decide)).trans (W1_arg14 m ρ c)

theorem W2_arg15 (c : Dev nD) : W2 m ρ c (Proc.devRef .tc main_arg15) = m ((c : Thread nD τ).loc main_arg15) :=
  (W2_of_ne m ρ c main_arg15 (by decide)).trans (W1_arg15 m ρ c)

theorem W2_arg16 (c : Dev nD) : W2 m ρ c (Proc.devRef .tc main_arg16) = m ((c : Thread nD τ).loc main_arg16) :=
  (W2_of_ne m ρ c main_arg16 (by decide)).trans (W1_arg16 m ρ c)

/-! ## After the second stretch of host operations -/

theorem W3_v59 (c : Dev nD) : W3 m ρ c (Proc.devRef .tc main_v59) = msgs sides (m ((c : Thread nD τ).loc main_arg15)) (m ((c : Thread nD τ).loc main_arg16)) (kLayerBN sides (m ((c : Thread nD τ).loc main_arg15)) (m ((c : Thread nD τ).loc main_arg16)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show StableHlo.after hostOps1 (W2 m ρ c) (Proc.devRef .tc main_v59) = _
  after_results_simp
  simp only [W2_v46 m ρ c, W2_v8 m ρ c, W2_arg0 m ρ c, W2_v23 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c]
  try rfl

theorem W3_v46 (c : Dev nD) : W3 m ρ c (Proc.devRef .tc main_v46) = kLayerBN sides (m ((c : Thread nD τ).loc main_arg15)) (m ((c : Thread nD τ).loc main_arg16)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v46) = _
  after_results_simp
  simp only [W2_v46 m ρ c, W2_v8 m ρ c, W2_arg0 m ρ c, W2_v23 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c]
  try rfl

theorem W3_v8 (c : Dev nD) : W3 m ρ c (Proc.devRef .tc main_v8) = d2col sides (m ((c : Thread nD τ).loc main_arg16)) := by
  show StableHlo.after hostOps1 (W2 m ρ c) (Proc.devRef .tc main_v8) = _
  after_results_simp
  simp only [W2_v46 m ρ c, W2_v8 m ρ c, W2_arg0 m ρ c, W2_v23 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c]
  try rfl

theorem W3_arg7 (c : Dev nD) : W3 m ρ c (Proc.devRef .tc main_arg7) = m ((c : Thread nD τ).loc main_arg7) := by
  show StableHlo.after hostOps1 (W2 m ρ c) (Proc.devRef .tc main_arg7) = _
  after_results_simp
  simp only [W2_v46 m ρ c, W2_v8 m ρ c, W2_arg0 m ρ c, W2_v23 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c]
  try rfl

theorem W3_v66 (c : Dev nD) : W3 m ρ c (Proc.devRef .tc main_v66) = rowOfVec sides (m ((c : Thread nD τ).loc main_arg8)) := by
  show StableHlo.after hostOps1 (W2 m ρ c) (Proc.devRef .tc main_v66) = _
  after_results_simp
  simp only [W2_v46 m ρ c, W2_v8 m ρ c, W2_arg0 m ρ c, W2_v23 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c]
  try rfl

theorem W3_v67 (c : Dev nD) : W3 m ρ c (Proc.devRef .tc main_v67) = rowOfVec sides (scaleV sides (m ((c : Thread nD τ).loc main_arg9)) (m ((c : Thread nD τ).loc main_arg12))) := by
  show StableHlo.after hostOps1 (W2 m ρ c) (Proc.devRef .tc main_v67) = _
  after_results_simp
  simp only [W2_v46 m ρ c, W2_v8 m ρ c, W2_arg0 m ρ c, W2_v23 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c]
  try rfl

theorem W3_v68 (c : Dev nD) : W3 m ρ c (Proc.devRef .tc main_v68) = rowOfVec sides (shiftV sides (m ((c : Thread nD τ).loc main_arg9)) (m ((c : Thread nD τ).loc main_arg10)) (m ((c : Thread nD τ).loc main_arg11)) (m ((c : Thread nD τ).loc main_arg12))) := by
  show StableHlo.after hostOps1 (W2 m ρ c) (Proc.devRef .tc main_v68) = _
  after_results_simp
  simp only [W2_v46 m ρ c, W2_v8 m ρ c, W2_arg0 m ρ c, W2_v23 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c]
  try rfl

theorem W3_v23 (c : Dev nD) : W3 m ρ c (Proc.devRef .tc main_v23) = coef sides (m ((c : Thread nD τ).loc main_arg15)) (m ((c : Thread nD τ).loc main_arg16)) := by
  show StableHlo.after hostOps1 (W2 m ρ c) (Proc.devRef .tc main_v23) = _
  after_results_simp
  simp only [W2_v46 m ρ c, W2_v8 m ρ c, W2_arg0 m ρ c, W2_v23 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c]
  try rfl

theorem W3_arg0 (c : Dev nD) : W3 m ρ c (Proc.devRef .tc main_arg0) = m ((c : Thread nD τ).loc main_arg0) := by
  show StableHlo.after hostOps1 (W2 m ρ c) (Proc.devRef .tc main_arg0) = _
  after_results_simp
  simp only [W2_v46 m ρ c, W2_v8 m ρ c, W2_arg0 m ρ c, W2_v23 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c]
  try rfl

theorem W3_arg13 (c : Dev nD) : W3 m ρ c (Proc.devRef .tc main_arg13) = m ((c : Thread nD τ).loc main_arg13) := by
  show StableHlo.after hostOps1 (W2 m ρ c) (Proc.devRef .tc main_arg13) = _
  after_results_simp
  simp only [W2_v46 m ρ c, W2_v8 m ρ c, W2_arg0 m ρ c, W2_v23 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c]
  try rfl

theorem W3_arg14 (c : Dev nD) : W3 m ρ c (Proc.devRef .tc main_arg14) = m ((c : Thread nD τ).loc main_arg14) := by
  show StableHlo.after hostOps1 (W2 m ρ c) (Proc.devRef .tc main_arg14) = _
  after_results_simp
  simp only [W2_v46 m ρ c, W2_v8 m ρ c, W2_arg0 m ρ c, W2_v23 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c]
  try rfl

theorem W3_arg15 (c : Dev nD) : W3 m ρ c (Proc.devRef .tc main_arg15) = m ((c : Thread nD τ).loc main_arg15) := by
  show StableHlo.after hostOps1 (W2 m ρ c) (Proc.devRef .tc main_arg15) = _
  after_results_simp
  simp only [W2_v46 m ρ c, W2_v8 m ρ c, W2_arg0 m ρ c, W2_v23 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c]
  try rfl

theorem W3_arg16 (c : Dev nD) : W3 m ρ c (Proc.devRef .tc main_arg16) = m ((c : Thread nD τ).loc main_arg16) := by
  show StableHlo.after hostOps1 (W2 m ρ c) (Proc.devRef .tc main_arg16) = _
  after_results_simp
  simp only [W2_v46 m ρ c, W2_v8 m ρ c, W2_arg0 m ρ c, W2_v23 m ρ c, W2_arg7 m ρ c, W2_arg8 m ρ c, W2_arg9 m ρ c, W2_arg10 m ρ c, W2_arg11 m ρ c, W2_arg12 m ρ c, W2_arg13 m ρ c, W2_arg14 m ρ c, W2_arg15 m ρ c, W2_arg16 m ρ c]
  try rfl

/-! ## After region 1 -/

theorem W4_v69 (c : Dev nD) : W4 m ρ c (Proc.devRef .tc main_v69) = kLayerBN sides (m ((c : Thread nD τ).loc main_arg15)) (m ((c : Thread nD τ).loc main_arg16)) (kLayerBN sides (m ((c : Thread nD τ).loc main_arg15)) (m ((c : Thread nD τ).loc main_arg16)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [show W4 m ρ c (Proc.devRef .tc main_v69) = (dat1 (F := Ideal) (V3 m ρ) c).arrAt 7 cfg1.N from W4_arr m ρ c 7, final1]
  show bnLayer (W3 m ρ c (Proc.devRef .tc main_v59)) (W3 m ρ c (Proc.devRef .tc main_v46)) (W3 m ρ c (Proc.devRef .tc main_v8)) (W3 m ρ c (Proc.devRef .tc main_arg7))
    (W3 m ρ c (Proc.devRef .tc main_v66)) (W3 m ρ c (Proc.devRef .tc main_v67)) (W3 m ρ c (Proc.devRef .tc main_v68)) = _
  rw [W3_v59, W3_v46, W3_v8, W3_arg7, W3_v66, W3_v67, W3_v68]
  rfl

theorem W4_v8 (c : Dev nD) : W4 m ρ c (Proc.devRef .tc main_v8) = d2col sides (m ((c : Thread nD τ).loc main_arg16)) :=
  ((W4_arr m ρ c 2).trans (((dat1 (F := Ideal) (V3 m ρ) c).arrAt_in 2 rfl _).trans (A_eq1 (V3 m ρ) c 2))).trans (W3_v8 m ρ c)

theorem W4_v23 (c : Dev nD) : W4 m ρ c (Proc.devRef .tc main_v23) = coef sides (m ((c : Thread nD τ).loc main_arg15)) (m ((c : Thread nD τ).loc main_arg16)) :=
  (W4_of_ne m ρ c main_v23 (by decide)).trans (W3_v23 m ρ c)

theorem W4_arg0 (c : Dev nD) : W4 m ρ c (Proc.devRef .tc main_arg0) = m ((c : Thread nD τ).loc main_arg0) :=
  (W4_of_ne m ρ c main_arg0 (by decide)).trans (W3_arg0 m ρ c)

theorem W4_arg13 (c : Dev nD) : W4 m ρ c (Proc.devRef .tc main_arg13) = m ((c : Thread nD τ).loc main_arg13) :=
  (W4_of_ne m ρ c main_arg13 (by decide)).trans (W3_arg13 m ρ c)

theorem W4_arg14 (c : Dev nD) : W4 m ρ c (Proc.devRef .tc main_arg14) = m ((c : Thread nD τ).loc main_arg14) :=
  (W4_of_ne m ρ c main_arg14 (by decide)).trans (W3_arg14 m ρ c)

theorem W4_arg15 (c : Dev nD) : W4 m ρ c (Proc.devRef .tc main_arg15) = m ((c : Thread nD τ).loc main_arg15) :=
  (W4_of_ne m ρ c main_arg15 (by decide)).trans (W3_arg15 m ρ c)

theorem W4_arg16 (c : Dev nD) : W4 m ρ c (Proc.devRef .tc main_arg16) = m ((c : Thread nD τ).loc main_arg16) :=
  (W4_of_ne m ρ c main_arg16 (by decide)).trans (W3_arg16 m ρ c)

/-! ## After the third stretch of host operations -/

theorem W5_v82 (c : Dev nD) : W5 m ρ c (Proc.devRef .tc main_v82) = msgs sides (m ((c : Thread nD τ).loc main_arg15)) (m ((c : Thread nD τ).loc main_arg16)) (kLayerBN sides (m ((c : Thread nD τ).loc main_arg15)) (m ((c : Thread nD τ).loc main_arg16)) (kLayerBN sides (m ((c : Thread nD τ).loc main_arg15)) (m ((c : Thread nD τ).loc main_arg16)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  show StableHlo.after hostOps2 (W4 m ρ c) (Proc.devRef .tc main_v82) = _
  after_results_simp
  simp only [W4_v69 m ρ c, W4_v8 m ρ c, W4_v23 m ρ c, W4_arg0 m ρ c, W4_arg13 m ρ c, W4_arg14 m ρ c, W4_arg15 m ρ c, W4_arg16 m ρ c]
  try rfl

theorem W5_v69 (c : Dev nD) : W5 m ρ c (Proc.devRef .tc main_v69) = kLayerBN sides (m ((c : Thread nD τ).loc main_arg15)) (m ((c : Thread nD τ).loc main_arg16)) (kLayerBN sides (m ((c : Thread nD τ).loc main_arg15)) (m ((c : Thread nD τ).loc main_arg16)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps2 (W4 m ρ c) (Proc.devRef .tc main_v69) = _
  after_results_simp
  simp only [W4_v69 m ρ c, W4_v8 m ρ c, W4_v23 m ρ c, W4_arg0 m ρ c, W4_arg13 m ρ c, W4_arg14 m ρ c, W4_arg15 m ρ c, W4_arg16 m ρ c]
  try rfl

theorem W5_v8 (c : Dev nD) : W5 m ρ c (Proc.devRef .tc main_v8) = d2col sides (m ((c : Thread nD τ).loc main_arg16)) := by
  show StableHlo.after hostOps2 (W4 m ρ c) (Proc.devRef .tc main_v8) = _
  after_results_simp
  simp only [W4_v69 m ρ c, W4_v8 m ρ c, W4_v23 m ρ c, W4_arg0 m ρ c, W4_arg13 m ρ c, W4_arg14 m ρ c, W4_arg15 m ρ c, W4_arg16 m ρ c]
  try rfl

theorem W5_arg13 (c : Dev nD) : W5 m ρ c (Proc.devRef .tc main_arg13) = m ((c : Thread nD τ).loc main_arg13) := by
  show StableHlo.after hostOps2 (W4 m ρ c) (Proc.devRef .tc main_arg13) = _
  after_results_simp
  simp only [W4_v69 m ρ c, W4_v8 m ρ c, W4_v23 m ρ c, W4_arg0 m ρ c, W4_arg13 m ρ c, W4_arg14 m ρ c, W4_arg15 m ρ c, W4_arg16 m ρ c]
  try rfl

theorem W5_v83 (c : Dev nD) : W5 m ρ c (Proc.devRef .tc main_v83) = rowOfVec sides (m ((c : Thread nD τ).loc main_arg14)) := by
  show StableHlo.after hostOps2 (W4 m ρ c) (Proc.devRef .tc main_v83) = _
  after_results_simp
  simp only [W4_v69 m ρ c, W4_v8 m ρ c, W4_v23 m ρ c, W4_arg0 m ρ c, W4_arg13 m ρ c, W4_arg14 m ρ c, W4_arg15 m ρ c, W4_arg16 m ρ c]
  try rfl

theorem W5_arg0 (c : Dev nD) : W5 m ρ c (Proc.devRef .tc main_arg0) = m ((c : Thread nD τ).loc main_arg0) := by
  show StableHlo.after hostOps2 (W4 m ρ c) (Proc.devRef .tc main_arg0) = _
  after_results_simp
  simp only [W4_v69 m ρ c, W4_v8 m ρ c, W4_v23 m ρ c, W4_arg0 m ρ c, W4_arg13 m ρ c, W4_arg14 m ρ c, W4_arg15 m ρ c, W4_arg16 m ρ c]
  try rfl

/-! ## After region 2: the result -/

/-- The result buffer ends at the kernel program's network of the arguments. -/
theorem W6_v84 (c : Dev nD) : W6 m ρ c (Proc.devRef .tc main_v84)
    = kNet sides (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [show W6 m ρ c (Proc.devRef .tc main_v84) = (dat2 (F := Ideal) (V5 m ρ) c).arrAt 6 cfg2.N from W6_arr m ρ c 6, final2]
  show resLayer (W5 m ρ c (Proc.devRef .tc main_v82)) (W5 m ρ c (Proc.devRef .tc main_v69)) (W5 m ρ c (Proc.devRef .tc main_v8)) (W5 m ρ c (Proc.devRef .tc main_arg13))
    (W5 m ρ c (Proc.devRef .tc main_v83)) (W5 m ρ c (Proc.devRef .tc main_arg0)) = _
  rw [W5_v82, W5_v69, W5_v8, W5_arg13, W5_v83, W5_arg0]
  rfl

end Cert.KernelIdeal.Net

end
-- ==== Proof.RefValue.lean ====
/-
  The reference's result as one function of its arguments: the composed term of its host operations is the
  three-layer network that multiplies by the weights first (the same operations, grouped by layer).
-/
import proofs.«149166_j53523882443689_2_alg».proof.Proof.Gen.ReferenceIdeal.Run
import proofs.«149166_j53523882443689_2_alg».proof.Proof.GcnHost

set_option maxRecDepth 65536
set_option maxHeartbeats 4000000

noncomputable section

namespace Cert.ReferenceIdeal.Net

open Cert.ReferenceIdeal Cert.Gcn
open Idealize.ShloMosaic Idealize.ShloMosaic.TcCoe Idealize.SL.Sem

theorem res_eq (m : (ℓ : Loc nD τ sig) → Buf (Elt Ideal) ℓ) (c : Dev nD) :
    Cert.ReferenceIdeal.Value.res_main_v164 (F := Ideal) m c
      = rNet sides (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold Cert.ReferenceIdeal.Value.res_main_v164
  rfl

end Cert.ReferenceIdeal.Net

end
-- ==== Proof.GcnLayers.lean ====
/-
  Each layer, fed real arrays, gives a real array: the image of the real layer of GcnAlgebra.

  With the degrees' inverse square roots real (dinv = up dr) the edge weights are the reals
  dr(source r)·dr(target r) and the self-loop weights dr(p)², and entry (p, q) of either program's layer is a finite
  expression in reals — sums over the channels and over the edges aimed at p, products, a difference, a maximum with
  0 — so it is the real number the same expression denotes. The two programs' layers are thereby the two orders of
  one convolution (conv_eq) and the two forms of one normalisation (bn_eq), and the three-layer networks agree
  (net_agree).
-/
import proofs.«149166_j53523882443689_2_alg».proof.Proof.GcnHost

open scoped BigOperators

noncomputable section

namespace Cert.Gcn

open Idealize.ShloMosaic Idealize.ShloMosaic.ValueIdx Cert.Lib.MatProd

variable (h : Sides)

/-- The larger of two reals, read in the extended reals, is the larger of the readings. -/
theorem coe_max (a b : ℝ) : ((max a b : ℝ) : EReal) = max (a : EReal) (b : EReal) :=
  EReal.coe_strictMono.monotone.map_max

theorem rowOfIdx_ix2 {a b : Nat} (p : Fin a) (q : Fin b) : rowOfIdx (ix2 p q) = p := rfl
theorem colOfIdx_ix2 {a b : Nat} (p : Fin a) (q : Fin b) : colOfIdx (ix2 p q) = q := rfl

/-! ## The graph as real data -/

/-- Edge r is aimed at node p. -/
def Lg (dst : IVec VE 32) : Fin 50000 → Fin 800000 → Prop := fun p r => Aimed (rawCol h dst) p r

instance (dst : IVec VE 32) (p : Fin 50000) (r : Fin 800000) : Decidable (Lg h dst p r) := by
  unfold Lg; infer_instance

/-- The node an index word selects for edge r, after the wrap and the clamp. -/
def σg (w : IVec VE 32) : Fin 800000 → Fin 50000 := srcOf (by norm_num : 0 < 50000) (wrapCol h w)

/-- The real weight of edge r. -/
def cg (src dst : IVec VE 32) (dr : VN.Idx → ℝ) : Fin 800000 → ℝ := fun r => dr (ix1 (σg h src r)) * dr (ix1 (σg h dst r))

/-- The real self-loop weight of node p. -/
def dg (dr : VN.Idx → ℝ) : Fin 50000 → ℝ := fun p => dr (ix1 p) * dr (ix1 p)

variable (src dst : IVec VE 32) (dr : VN.Idx → ℝ)

/-! ## Reading the host pieces at an entry -/

theorem zerosMN_apply (i : MN.Idx) :
    broadcastInDim MN ![] h.bS_MN (constant (F := Ideal) S0 .f32 0x00000000#32) i = (0 : EReal) := by
  rw [Cert.Lib.RowVector.bcastInDim_scalar_apply, constant_apply, Ideal.ofBits_zero_f32]

theorem coef_apply (hd : dinv h dst = up dr) (r : Fin 800000) :
    coef h src dst (ix1 r) = ((cg h src dst dr r : ℝ) : EReal) := by
  unfold coef cg σg srcOf
  rw [mulf_apply, Cert.Lib.VecGather.gather_vec_apply (by norm_num : 0 < 50000),
    Cert.Lib.VecGather.gather_vec_apply (by norm_num : 0 < 50000), hd, up_apply, up_apply, EReal.coe_mul]

/-- The scatter of the messages, as the exact sum it is on the extended reals (an equation of whole arrays). -/
theorem msgs_eq (X : MN.Idx → EReal) :
    msgs h src dst X = Ideal.hostScatterAdd (Cert.Lib.ScatterRows.dims h.wfS)
      (broadcastInDim MN ![] h.bS_MN (constant (F := Ideal) S0 .f32 0x00000000#32)) (rawCol h dst)
      (mulf (F := Ideal) (φ := .f32) (Host.gather (Cert.Lib.RowGather.rowsDims 50000 800000 128 h.wfG) X (wrapCol h src))
        (broadcastInDim ME ![0, 1] h.bCE_ME (broadcastInDim CE ![0] h.bE_CE (coef h src dst)))) := rfl

theorem msgs_apply (X : MN.Idx → EReal) (p : Fin 50000) (q : Fin 128) :
    msgs h src dst X (ix2 p q)
      = 0 + ∑ r : Fin 800000, if Lg h dst p r then X (ix2 (σg h src r) q) * coef h src dst (ix1 r) else 0 :=
  (congrFun (msgs_eq h src dst X) (ix2 p q)).trans <| messages_apply (N := 50000) (M := 800000) (D := 128) (by norm_num) h.wfS h.wfG h.bE_CE h.bCE_ME _
    (zerosMN_apply h) X (coef h src dst) (wrapCol h src) (rawCol h dst) p q

theorem d2col_apply (p : Fin 50000) : d2col h dst (ix2 p 0) = dinv h dst (ix1 p) * dinv h dst (ix1 p) := by
  unfold d2col
  rw [Cert.Lib.RowReductions.shapeCast_col_apply, mulf_apply]

theorem rowOfVec_apply (v : VD.Idx → EReal) (q : Fin 128) : rowOfVec h v (ix2 0 q) = v (ix1 q) := by
  unfold rowOfVec
  rw [Cert.Lib.RowReductions.shapeCast_rowvec_apply]

theorem bcRow_apply (v : VD.Idx → EReal) (p : Fin 50000) (q : Fin 128) : bcRow h v (ix2 p q) = v (ix1 q) := by
  unfold bcRow
  rw [Cert.Lib.RowVector.bcastInDim_rows_apply, Cert.Lib.RowVector.bcastInDim_eq_asRow, Cert.Lib.RowVector.asRow_apply]

theorem bcCol_apply (y : VN.Idx → EReal) (p : Fin 50000) (q : Fin 128) :
    broadcastInDim MN ![0, 1] h.bCN_MN (broadcastInDim CN ![0] h.bN_CN y) (ix2 p q) = y (ix1 p) := by
  rw [Cert.Lib.RowReductions.bcastInDim_cols_apply, Cert.Lib.RowReductions.bcastInDim_col_apply]

/-! ## The kernel program's layers on real arrays -/

variable (Hr : MN.Idx → ℝ) (Wr : MW.Idx → ℝ) (br gr ber mur rsr : VD.Idx → ℝ)

/-- The real convolution of the kernel's order, as an array. -/
def convKg : MN.Idx → ℝ := fun i =>
  convK (Lg h dst) (σg h src) (cg h src dst dr) (dg dr) (fun p k => Hr (ix2 p k)) (fun k q => Wr (ix2 k q))
    (fun q => br (ix1 q)) (rowOfIdx i) (colOfIdx i)

/-- The real convolution of the reference's order, as an array. -/
def convRg : MN.Idx → ℝ := fun i =>
  convR (Lg h dst) (σg h src) (cg h src dst dr) (dg dr) (fun p k => Hr (ix2 p k)) (fun k q => Wr (ix2 k q))
    (fun q => br (ix1 q)) (rowOfIdx i) (colOfIdx i)

theorem convKg_eq : convKg h src dst dr Hr Wr br = convRg h src dst dr Hr Wr br := by
  funext i
  unfold convKg convRg
  rw [conv_eq]

theorem kConv_up (hd : dinv h dst = up dr) :
    convRow (msgs h src dst (up Hr)) (up Hr) (d2col h dst) (up Wr) (rowOfVec h (up br))
      = up (convKg h src dst dr Hr Wr br) := by
  funext i
  unfold convRow convKg convK agg dg
  simp only [msgs_apply, coef_apply h src dst dr hd, d2col_apply, hd, rowOfVec_apply, up_apply,
    EReal.coe_add, EReal.coe_mul, coe_sum, coe_ite_zero, zero_add]

theorem kLayerBN_up (v : VD.Idx → EReal) (hd : dinv h dst = up dr) (hrs : rsV h v = up rsr) :
    kLayerBN h src dst (up Hr) (up Wr) (up br) (up gr) (up ber) (up mur) v
      = up (fun i => bnK (convKg h src dst dr Hr Wr br i) (gr (ix1 (colOfIdx i))) (ber (ix1 (colOfIdx i)))
          (mur (ix1 (colOfIdx i))) (rsr (ix1 (colOfIdx i)))) := by
  unfold kLayerBN bnLayer
  rw [kConv_up h src dst dr Hr Wr br hd]
  funext i
  unfold bnK
  simp only [scaleV, shiftV, rowOfVec_apply, mulf_apply, subf_apply, hrs, up_apply, coe_max, EReal.coe_add, EReal.coe_mul,
    EReal.coe_sub, EReal.coe_zero]

theorem kLayerRes_up (Xr : MN.Idx → ℝ) (hd : dinv h dst = up dr) :
    kLayerRes h src dst (up Hr) (up Wr) (up br) (up Xr)
      = up (fun i => convKg h src dst dr Hr Wr br i + Xr i) := by
  unfold kLayerRes resLayer
  rw [kConv_up h src dst dr Hr Wr br hd]
  funext i
  simp only [up_apply, EReal.coe_add]

/-! ## The reference's layers on real arrays -/

/-- The messages of a real array are a real array: at (p, q) the real sum over the edges aimed at p. -/
theorem msgs_up (Xr : MN.Idx → ℝ) (hd : dinv h dst = up dr) :
    msgs h src dst (up Xr) = up (fun i => ∑ r : Fin 800000,
      if Lg h dst (rowOfIdx i) r then Xr (ix2 (σg h src r) (colOfIdx i)) * cg h src dst dr r else 0) := by
  funext i
  obtain ⟨p, q, rfl⟩ : ∃ (p : Fin 50000) (q : Fin 128), i = ix2 p q := ⟨rowOfIdx i, colOfIdx i, (ix2_row_col i).symm⟩
  rw [msgs_apply]
  simp only [coef_apply h src dst dr hd, up_apply, rowOfIdx_ix2, colOfIdx_ix2, coe_sum, coe_ite_zero, EReal.coe_mul,
    zero_add]

/-- The product of two real matrices is a real matrix. -/
theorem matProd_up :
    matProd (up Hr) (up Wr) = up (fun i => ∑ k : Fin 128, Hr (ix2 (rowOfIdx i) k) * Wr (ix2 k (colOfIdx i))) := by
  funext i
  obtain ⟨p, q, rfl⟩ : ∃ (p : Fin 50000) (q : Fin 128), i = ix2 p q := ⟨rowOfIdx i, colOfIdx i, (ix2_row_col i).symm⟩
  rw [matProd_apply]
  simp only [up_apply, rowOfIdx_ix2, colOfIdx_ix2, coe_sum, EReal.coe_mul]

theorem rConv_up (hd : dinv h dst = up dr) :
    rConv h src dst (up Hr) (up Wr) (up br) = up (convRg h src dst dr Hr Wr br) := by
  unfold rConv
  simp only [Host.dotGeneral]
  rw [dotGeneral_eq_matProd (dotD h) rfl rfl rfl rfl rfl rfl, matProd_up, msgs_up h src dst dr _ hd, hd]
  funext i
  obtain ⟨p, q, rfl⟩ : ∃ (p : Fin 50000) (q : Fin 128), i = ix2 p q := ⟨rowOfIdx i, colOfIdx i, (ix2_row_col i).symm⟩
  unfold convRg convR agg prod dg
  simp only [addf_apply, mulf_apply, bcCol_apply, bcRow_apply, up_apply, rowOfIdx_ix2, colOfIdx_ix2,
    EReal.coe_add, EReal.coe_mul]
  rw [bcCol_apply h (mulf (F := Ideal) (φ := .f32) (up dr) (up dr)) p q, mulf_apply, up_apply]

theorem rBN_up (Xr : MN.Idx → ℝ) (v : VD.Idx → EReal) (hrs : rsV h v = up rsr) :
    rBN h (up Xr) (up gr) (up ber) (up mur) v
      = up (fun i => bnR (Xr i) (gr (ix1 (colOfIdx i))) (ber (ix1 (colOfIdx i))) (mur (ix1 (colOfIdx i)))
          (rsr (ix1 (colOfIdx i)))) := by
  funext i
  obtain ⟨p, q, rfl⟩ : ∃ (p : Fin 50000) (q : Fin 128), i = ix2 p q := ⟨rowOfIdx i, colOfIdx i, (ix2_row_col i).symm⟩
  unfold rBN bnR
  simp only [maximumf_apply, addf_apply, mulf_apply, subf_apply, bcRow_apply, zerosMN_apply, hrs, up_apply,
    colOfIdx_ix2, coe_max, EReal.coe_add, EReal.coe_mul, EReal.coe_sub, EReal.coe_zero]
  rw [zerosMN_apply h (ix2 p q)]

/-! ## The two networks agree on real inputs -/

theorem net_agree (xr : MN.Idx → ℝ) (W1r : MW.Idx → ℝ) (b1r g1r be1r m1r rs1r : VD.Idx → ℝ) (W2r : MW.Idx → ℝ)
    (b2r g2r be2r m2r rs2r : VD.Idx → ℝ) (W3r : MW.Idx → ℝ) (b3r : VD.Idx → ℝ) (v1 v2 : VD.Idx → EReal)
    (hd : dinv h dst = up dr) (hrs1 : rsV h v1 = up rs1r) (hrs2 : rsV h v2 = up rs2r) :
    kNet h (up xr) (up W1r) (up b1r) (up g1r) (up be1r) (up m1r) v1 (up W2r) (up b2r) (up g2r) (up be2r) (up m2r) v2
        (up W3r) (up b3r) src dst
      = rNet h (up xr) (up W1r) (up b1r) (up g1r) (up be1r) (up m1r) v1 (up W2r) (up b2r) (up g2r) (up be2r) (up m2r) v2
        (up W3r) (up b3r) src dst := by
  unfold kNet rNet
  rw [kLayerBN_up h src dst dr xr W1r b1r g1r be1r m1r rs1r v1 hd hrs1,
    kLayerBN_up h src dst dr _ W2r b2r g2r be2r m2r rs2r v2 hd hrs2,
    kLayerRes_up h src dst dr _ W3r b3r xr hd,
    rConv_up h src dst dr xr W1r b1r hd, rBN_up h g1r be1r m1r rs1r _ v1 hrs1,
    rConv_up h src dst dr _ W2r b2r hd, rBN_up h g2r be2r m2r rs2r _ v2 hrs2,
    rConv_up h src dst dr _ W3r b3r hd]
  funext i
  simp only [addf_apply, up_apply, EReal.coe_add, convKg_eq, bn_eq]

end Cert.Gcn

end
-- ==== Proof.GcnReals.lean ====
/-
  Where the reals come from.

  The degree of a node is a count of edges plus one: a real that is at least 1, so its inverse square root is the
  real 1/√deg, never the ⊤ or ⊥ that the extended inverse square root gives at 0 or below (dinv_real). A running
  variance that is a real ≥ 0, plus the positive ε the programs add, is a positive real, so the inverse deviation
  1/√(v + ε) is a real too (rsV_real).
-/
import proofs.«149166_j53523882443689_2_alg».proof.Proof.GcnHost

open scoped BigOperators

noncomputable section

namespace Cert.Gcn

open Idealize.ShloMosaic Idealize.ShloMosaic.ValueIdx

variable (h : Sides)

/-- The single-precision word 3F800000 is 1. -/
theorem ofBits_one_f32 : Ideal.ofBits .f32 0x3F800000#32 = (1 : EReal) := by
  simp [Ideal.ofBits, Ideal.ieee, -EReal.coe_mul]; norm_num

/-- The single-precision word 3727C5AC (the ε of the normalisation) is a positive real. -/
theorem eps_pos : ∃ e : ℝ, 0 < e ∧ Ideal.ofBits .f32 0x3727C5AC#32 = ((e : ℝ) : EReal) := by
  refine ⟨_, ?_, by simp [Ideal.ofBits, Ideal.ieee, -EReal.coe_mul]; rfl⟩
  norm_num

/-- The inverse square root of a positive real is the real 1/√r. -/
theorem rsqrt_pos (r : ℝ) (hr : 0 < r) : Ideal.rsqrt ((r : ℝ) : EReal) = (((Real.sqrt r)⁻¹ : ℝ) : EReal) := by
  rw [Ideal.rsqrt_coe, if_neg (not_lt.mpr hr.le), if_neg hr.ne']

/-- The host's inverse square root of an array, at an entry. -/
theorem hostRsqrt_apply {s : Shape} (x : s.Idx → EReal) (i : s.Idx) :
    Host.rsqrt (F := Ideal) (φ := .f32) x i = Ideal.rsqrt (x i) := rfl

/-- dinv as the inverse square root of the edge counts plus one (an equation of whole arrays). -/
theorem dinv_eq (dst : IVec VE 32) :
    dinv h dst = Host.rsqrt (F := Ideal) (φ := .f32)
      (addf (Ideal.hostScatterAdd (Cert.Lib.ScatterCount.dims h.wfC)
          (broadcastInDim VN ![] h.bS_N (constant (F := Ideal) S0 .f32 0x00000000#32)) (rawCol h dst)
          (broadcastInDim VE ![] h.bS_E (constant (F := Ideal) S0 .f32 0x3F800000#32)))
        (broadcastInDim VN ![] h.bS_N (constant (F := Ideal) S0 .f32 0x3F800000#32))) := by
  unfold dinv Host.scatterAdd
  rw [Ideal.hostScatterAdd_def]

/-- The inverse square root of (a real count ≥ 0) + 1, entry by entry, is a real. -/
theorem rsqrt_count_real (sf : VN.Idx → ℝ) (hs0 : ∀ i, 0 ≤ sf i) :
    ∃ dr : VN.Idx → ℝ, Host.rsqrt (F := Ideal) (φ := .f32)
      (addf (up sf) (broadcastInDim VN ![] h.bS_N (constant (F := Ideal) S0 .f32 0x3F800000#32))) = up dr := by
  refine exists_up _ fun i => ?_
  rw [hostRsqrt_apply, addf_apply, up_apply, Cert.Lib.RowVector.bcastInDim_scalar_apply, constant_apply, ofBits_one_f32,
    ← EReal.coe_one, ← EReal.coe_add, rsqrt_pos _ (by linarith [hs0 i])]
  exact ⟨_, rfl⟩

theorem dinv_real (dst : IVec VE 32) : ∃ dr : VN.Idx → ℝ, dinv h dst = up dr := by
  have hc := count_real (N := 50000) (M := 800000) h.wfC
    (broadcastInDim VN ![] h.bS_N (constant (F := Ideal) S0 .f32 0x00000000#32))
    (fun j => by rw [Cert.Lib.RowVector.bcastInDim_scalar_apply, constant_apply, Ideal.ofBits_zero_f32])
    (broadcastInDim VE ![] h.bS_E (constant (F := Ideal) S0 .f32 0x3F800000#32))
    (fun j => by rw [Cert.Lib.RowVector.bcastInDim_scalar_apply, constant_apply, ofBits_one_f32])
    (rawCol h dst)
  choose sf hs0 hsf using hc
  rw [dinv_eq, show Ideal.hostScatterAdd (Cert.Lib.ScatterCount.dims h.wfC)
      (broadcastInDim VN ![] h.bS_N (constant (F := Ideal) S0 .f32 0x00000000#32)) (rawCol h dst)
      (broadcastInDim VE ![] h.bS_E (constant (F := Ideal) S0 .f32 0x3F800000#32)) = up sf from funext hsf]
  exact rsqrt_count_real h sf hs0

theorem rsV_real (v : VD.Idx → EReal) (hv : ∀ j, ∃ r : ℝ, v j = (r : EReal)) (hv0 : ∀ j, 0 ≤ v j) :
    ∃ rsr : VD.Idx → ℝ, rsV h v = up rsr := by
  refine exists_up _ fun j => ?_
  obtain ⟨r, hr⟩ := hv j
  have h0 : (0 : ℝ) ≤ r := by
    have := hv0 j
    rw [hr] at this
    exact_mod_cast this
  obtain ⟨e, he, hE⟩ := eps_pos
  unfold rsV
  rw [hostRsqrt_apply, addf_apply, hr, Cert.Lib.RowVector.bcastInDim_scalar_apply, constant_apply, hE, ← EReal.coe_add, rsqrt_pos _ (by linarith)]
  exact ⟨_, rfl⟩

end Cert.Gcn

end
-- ==== Proof.LibFiniteInputs.lean ====
/-
  Reading a printed precondition "every entry is finite" / "every entry is ≥ 0" back on the extended reals.

  jnp.all(|x| < +inf) prints as a reduce by `and` (from the word 1) of the entrywise comparison of |x| with a
  broadcast of the word 0x7F800000 (+∞). If that reduce is 1 then every entry x i has |x i| = max (x i) (−x i) < ⊤,
  so x i is neither ⊤ nor ⊥: a real. jnp.all(x ≥ 0) prints the same way with the comparison x ≥ (the word 0); if it
  is 1 then every entry is ≥ 0. Nothing here mentions a program.
-/
import Idealize.ShloMosaic.PureOps.Ideal
import Idealize.ShloMosaic.PureOps.Ideal.Laws
import Idealize.ShloMosaic.Lib.ValueIdx
import Idealize.ShloMosaic.Lib.ReduceAll

noncomputable section

namespace Cert.Lib.FiniteInputs

open Idealize.ShloMosaic Idealize.ShloMosaic.ValueIdx

instance : Subsingleton (⟨0, ![]⟩ : Shape).Idx := ⟨fun a b => funext fun d => d.elim0⟩

/-- The single-precision word 7F800000 is +∞. -/
theorem ofBits_inf_f32 : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A comparison word that is 1 says the comparison holds: "less than". -/
theorem lt_of_cmp_olt (x y : EReal) (h : Ideal.cmp .olt x y = 1#1) : x < y := by
  unfold Ideal.cmp at h
  by_contra hn
  simp [hn] at h

/-- A comparison word that is 1 says the comparison holds: "at least". -/
theorem le_of_cmp_oge (x y : EReal) (h : Ideal.cmp .oge x y = 1#1) : y ≤ x := by
  unfold Ideal.cmp at h
  by_contra hn
  simp [hn] at h

variable {s u : Shape} {axes : List (Fin s.rank)}

/-- jnp.all(|x| < +inf) = true: every entry of x is a real. -/
theorem real_of_all_finite (x : s.Idx → EReal) (hb : (⟨0, ![]⟩ : Shape).BroadcastsInDim s ![])
    (init : u.Idx → BitVec 1) (hr : s.ReducesTo axes ⟨0, ![]⟩) (hu : 0 < u.numel)
    (e : Host.reduce IntOp.andi
        (cmpf .olt (Host.absf (F := Ideal) (φ := .f32) x)
          (broadcastInDim s ![] hb (constant (F := Ideal) ⟨0, ![]⟩ .f32 0x7F800000#32))) init hr hu ix0 = 1#1)
    (i : s.Idx) : ∃ r : ℝ, x i = (r : EReal) := by
  have hi := Host.reduce_andi_all _ init hr hu ix0 e i
  refine real_of_abs_lt_top (x i) ?_
  have := lt_of_cmp_olt _ _ hi
  rw [← ofBits_inf_f32]
  exact this

/-- jnp.all(x ≥ 0) = true: every entry of x is at least 0. -/
theorem nonneg_of_all_ge (x : s.Idx → EReal) (hb : (⟨0, ![]⟩ : Shape).BroadcastsInDim s ![])
    (init : u.Idx → BitVec 1) (hr : s.ReducesTo axes ⟨0, ![]⟩) (hu : 0 < u.numel)
    (e : Host.reduce IntOp.andi
        (cmpf .oge x (broadcastInDim s ![] hb (constant (F := Ideal) ⟨0, ![]⟩ .f32 0x00000000#32))) init hr hu ix0 = 1#1)
    (i : s.Idx) : 0 ≤ x i := by
  have hi := Host.reduce_andi_all _ init hr hu ix0 e i
  have := le_of_cmp_oge _ _ hi
  rw [← Ideal.ofBits_zero_f32]
  exact this

end Cert.Lib.FiniteInputs

end
-- ==== Proof.PreDecode.lean ====
/-
  The precondition, read back: every float argument holds reals only, and the two running-variance vectors hold
  nothing negative. The printed predicate is a conjunction (a chain of `and`s) of seventeen reductions, one per
  conjunct of its source; each is read by the lemmas on printed "all finite" / "all ≥ 0" tests.
-/
import proofs.«149166_j53523882443689_2_alg».proof.Pre_finite_inputs
import proofs.«149166_j53523882443689_2_alg».proof.Proof.LibFiniteInputs

set_option maxRecDepth 16384

noncomputable section

namespace Cert.Proof.PreRead

open Idealize.ShloMosaic Idealize.ShloMosaic.ValueIdx Cert.Pre_finite_inputs Cert.Lib.FiniteInputs

variable [Cert.Pre_finite_inputs.Facts]

theorem decode (a0 : FVec Ideal S50000x128 .f32) (a1 : FVec Ideal S128x128 .f32) (a2 : FVec Ideal S128 .f32) (a3 : FVec Ideal S128 .f32) (a4 : FVec Ideal S128 .f32) (a5 : FVec Ideal S128 .f32) (a6 : FVec Ideal S128 .f32) (a7 : FVec Ideal S128x128 .f32) (a8 : FVec Ideal S128 .f32) (a9 : FVec Ideal S128 .f32) (a10 : FVec Ideal S128 .f32) (a11 : FVec Ideal S128 .f32) (a12 : FVec Ideal S128 .f32) (a13 : FVec Ideal S128x128 .f32) (a14 : FVec Ideal S128 .f32) (a15 a16 : IVec S800000 32)
    (h : Cert.Pre_finite_inputs.fn (F := Ideal) a0 a1 a2 a3 a4 a5 a6 a7 a8 a9 a10 a11 a12 a13 a14 a15 a16 = fun _ => 1#1) :
    (∀ i, ∃ r : ℝ, a0 i = (r : EReal))
    ∧ (∀ i, ∃ r : ℝ, a1 i = (r : EReal))
    ∧ (∀ i, ∃ r : ℝ, a2 i = (r : EReal))
    ∧ (∀ i, ∃ r : ℝ, a3 i = (r : EReal))
    ∧ (∀ i, ∃ r : ℝ, a4 i = (r : EReal))
    ∧ (∀ i, ∃ r : ℝ, a5 i = (r : EReal))
    ∧ (∀ i, ∃ r : ℝ, a6 i = (r : EReal))
    ∧ (∀ i, ∃ r : ℝ, a7 i = (r : EReal))
    ∧ (∀ i, ∃ r : ℝ, a8 i = (r : EReal))
    ∧ (∀ i, ∃ r : ℝ, a9 i = (r : EReal))
    ∧ (∀ i, ∃ r : ℝ, a10 i = (r : EReal))
    ∧ (∀ i, ∃ r : ℝ, a11 i = (r : EReal))
    ∧ (∀ i, ∃ r : ℝ, a12 i = (r : EReal))
    ∧ (∀ i, ∃ r : ℝ, a13 i = (r : EReal))
    ∧ (∀ i, ∃ r : ℝ, a14 i = (r : EReal))
    ∧ (∀ i, 0 ≤ a6 i) ∧ (∀ i, 0 ≤ a12 i) := by
  have h0 := congrFun h ix0
  dsimp only [Cert.Pre_finite_inputs.fn, fn_part1, fn_part2, fn_part3, fn_part4] at h0
  obtain ⟨h0, g12⟩ := IntOp.andi_eq_one.1 h0
  obtain ⟨h0, g6⟩ := IntOp.andi_eq_one.1 h0
  obtain ⟨h0, f14⟩ := IntOp.andi_eq_one.1 h0
  obtain ⟨h0, f13⟩ := IntOp.andi_eq_one.1 h0
  obtain ⟨h0, f12⟩ := IntOp.andi_eq_one.1 h0
  obtain ⟨h0, f11⟩ := IntOp.andi_eq_one.1 h0
  obtain ⟨h0, f10⟩ := IntOp.andi_eq_one.1 h0
  obtain ⟨h0, f9⟩ := IntOp.andi_eq_one.1 h0
  obtain ⟨h0, f8⟩ := IntOp.andi_eq_one.1 h0
  obtain ⟨h0, f7⟩ := IntOp.andi_eq_one.1 h0
  obtain ⟨h0, f6⟩ := IntOp.andi_eq_one.1 h0
  obtain ⟨h0, f5⟩ := IntOp.andi_eq_one.1 h0
  obtain ⟨h0, f4⟩ := IntOp.andi_eq_one.1 h0
  obtain ⟨h0, f3⟩ := IntOp.andi_eq_one.1 h0
  obtain ⟨h0, f2⟩ := IntOp.andi_eq_one.1 h0
  obtain ⟨f0, f1⟩ := IntOp.andi_eq_one.1 h0
  exact ⟨real_of_all_finite _ _ _ _ _ f0, real_of_all_finite _ _ _ _ _ f1, real_of_all_finite _ _ _ _ _ f2, real_of_all_finite _ _ _ _ _ f3, real_of_all_finite _ _ _ _ _ f4, real_of_all_finite _ _ _ _ _ f5, real_of_all_finite _ _ _ _ _ f6, real_of_all_finite _ _ _ _ _ f7, real_of_all_finite _ _ _ _ _ f8, real_of_all_finite _ _ _ _ _ f9, real_of_all_finite _ _ _ _ _ f10, real_of_all_finite _ _ _ _ _ f11, real_of_all_finite _ _ _ _ _ f12, real_of_all_finite _ _ _ _ _ f13, real_of_all_finite _ _ _ _ _ f14,
    nonneg_of_all_ge _ _ _ _ _ g6, nonneg_of_all_ge _ _ _ _ _ g12⟩

end Cert.Proof.PreRead

end
-- ==== Proof.lean ====
/-
  A three-layer graph convolution network: a fused Pallas layer per convolution against the plain jnp reference.

  Both programs compute, for 50000 nodes with 128 channels and 800000 edges, three convolutions with the symmetric
  normalisation deg^(-1/2)·(A + I)·deg^(-1/2), the first two followed by a batch normalisation with running
  statistics and a clamp at zero, the last by adding the input back. They differ in two places. The kernel program
  aggregates the layer's input over the edges and multiplies by the weight matrix afterwards, inside the fused
  layer, where the reference multiplies first and aggregates the product; and it folds the normalisation
  (x − μ)·ρ·γ + β to x·(γ·ρ) + (β − μ·(γ·ρ)). Over the reals these are the same numbers: the product distributes
  over the finite sum over the edges and the per-node scale commutes with it. On the extended reals the laws need
  the entries to be reals, which is where the precondition is used: the float inputs are finite, the degrees are
  counts plus one (so their inverse square roots are reals), and the running variances are not negative, so that
  1/√(v + ε) is a real as well.

  The frames of the two kernel programs are the generated ones; the reference's is its generated run. The value
  of the kernel program is read off the launch of its six segments (three stretches of host operations, three
  kernel regions), each region's output array being the fused layer of its operands because its ten row blocks tile
  the rows and an entry depends on its own row only.
-/
import proofs.«149166_j53523882443689_2_alg».proof.Defs
import proofs.«149166_j53523882443689_2_alg».proof.Proof.Gen.Kernel
import proofs.«149166_j53523882443689_2_alg».proof.Proof.Gen.Kernel.Frame
import proofs.«149166_j53523882443689_2_alg».proof.Proof.Gen.KernelIdeal
import proofs.«149166_j53523882443689_2_alg».proof.Proof.Gen.KernelIdeal.Frame
import proofs.«149166_j53523882443689_2_alg».proof.Proof.Gen.ReferenceIdeal
import proofs.«149166_j53523882443689_2_alg».proof.Proof.Gen.ReferenceIdeal.Run
import proofs.«149166_j53523882443689_2_alg».proof.Proof.Gen.Pre_finite_inputs
import proofs.«149166_j53523882443689_2_alg».proof.Proof.KernelValue
import proofs.«149166_j53523882443689_2_alg».proof.Proof.RefValue
import proofs.«149166_j53523882443689_2_alg».proof.Proof.GcnLayers
import proofs.«149166_j53523882443689_2_alg».proof.Proof.GcnReals
import proofs.«149166_j53523882443689_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Cert.Gcn

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

set_option maxHeartbeats 8000000 in
/-- The two networks of one memory's arguments agree when the precondition holds of them. -/
theorem nets_agree (m : (ℓ : Loc Cert.KernelIdeal.nD Cert.KernelIdeal.τ Cert.KernelIdeal.sig) → Buf (Elt Ideal) ℓ)
    (hpre : Cert.Pre_KernelIdeal m) (c : Dev Cert.KernelIdeal.nD) :
    rNet sides (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
      = kNet sides (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) := by
  obtain ⟨f0, f1, f2, f3, f4, f5, f6, f7, f8, f9, f10, f11, f12, f13, f14, g6, g12⟩ :=
    Cert.Proof.PreRead.decode _ _ _ _ _ _ _ _ _ _ _ _ _ _ _ _ _ (hpre c)
  obtain ⟨r0, e0⟩ := exists_up _ f0
  obtain ⟨r1, e1⟩ := exists_up _ f1
  obtain ⟨r2, e2⟩ := exists_up _ f2
  obtain ⟨r3, e3⟩ := exists_up _ f3
  obtain ⟨r4, e4⟩ := exists_up _ f4
  obtain ⟨r5, e5⟩ := exists_up _ f5
  obtain ⟨r7, e7⟩ := exists_up _ f7
  obtain ⟨r8, e8⟩ := exists_up _ f8
  obtain ⟨r9, e9⟩ := exists_up _ f9
  obtain ⟨r10, e10⟩ := exists_up _ f10
  obtain ⟨r11, e11⟩ := exists_up _ f11
  obtain ⟨r13, e13⟩ := exists_up _ f13
  obtain ⟨r14, e14⟩ := exists_up _ f14
  obtain ⟨dr, hd⟩ := dinv_real sides (m ((c.tc : Thread Cert.KernelIdeal.nD Cert.KernelIdeal.τ).loc Cert.KernelIdeal.main_arg16))
  obtain ⟨rs1, hrs1⟩ := rsV_real sides _ f6 g6
  obtain ⟨rs2, hrs2⟩ := rsV_real sides _ f12 g12
  rw [e0, e1, e2, e3, e4, e5, e7, e8, e9, e10, e11, e13, e14]
  exact (net_agree sides _ _ dr r0 r1 r2 r3 r4 r5 rs1 r7 r8 r9 r10 r11 rs2 r13 r14 _ _ hd hrs1 hrs2).symm

theorem algebraic : Cert.algebraic_KernelIdeal_ReferenceIdeal := by
  intro m ρ m' ρ' hpre hagree
  refine ⟨fun c => Cert.KernelIdeal.Gen.W6 m ρ c (Proc.devRef .tc Cert.KernelIdeal.main_v84),
    Cert.KernelIdeal.Net.run_result m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Net.res_eq m' c).trans ?_
  refine Eq.trans ?_ (Cert.KernelIdeal.Net.W6_v84 m ρ c).symm
  obtain ⟨a0, a1, a2, a3, a4, a5, a6, a7, a8, a9, a10, a11, a12, a13, a14, a15, a16⟩ := hagree c
  rw [a0, a1, a2, a3, a4, a5, a6, a7, a8, a9, a10, a11, a12, a13, a14, a15, a16]
  exact nets_agree m hpre c

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
